-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x4 : Shape := ⟨3, ![64, 2048, 4]⟩
abbrev S_ : Shape := ⟨0, ![]⟩

class Facts : Prop where
  bcast_S_S64x2048x4 : S_.BroadcastsInDim S64x2048x4 (![] : Fin 0 → Fin S64x2048x4.rank)
  reducesTo_S64x2048x4_S_d0_1_2 : S64x2048x4.ReducesTo [0, 1, 2] S_
  h_S_ : 0 < S_.numel

variable [Facts]

def fn {F : FTy → Type} [FloatOps F] (main_arg0 : FVec F S64x2048x4 .f32) (main_arg1 : FVec F S64x2048x4 .f32) : IVec S_ 1 :=
  let main_v0 : FVec F S64x2048x4 .f32 := Host.absf main_arg0
  let main_cst : FVec F S_ .f32 := constant S_ .f32 0x7F800000#32
  let main_v1 : FVec F S64x2048x4 .f32 := broadcastInDim S64x2048x4 ![] bcast_S_S64x2048x4 main_cst
  let main_v2 : IVec S64x2048x4 1 := cmpf .olt main_v0 main_v1
  let main_c : IVec S_ 1 := constantI S_ 1 1#1
  let main_v3 : IVec S_ 1 := (fun x v => Host.reduce IntOp.andi x v reducesTo_S64x2048x4_S_d0_1_2 h_S_) main_v2 main_c
  let main_v4 : FVec F S64x2048x4 .f32 := Host.absf main_arg1
  let main_cst_0 : FVec F S_ .f32 := constant S_ .f32 0x7F800000#32
  let main_v5 : FVec F S64x2048x4 .f32 := broadcastInDim S64x2048x4 ![] bcast_S_S64x2048x4 main_cst_0
  let main_v6 : IVec S64x2048x4 1 := cmpf .olt main_v4 main_v5
  let main_c_1 : IVec S_ 1 := constantI S_ 1 1#1
  let main_v7 : IVec S_ 1 := (fun x v => Host.reduce IntOp.andi x v reducesTo_S64x2048x4_S_d0_1_2 h_S_) main_v6 main_c_1
  let main_v8 : IVec S_ 1 := andi main_v3 main_v7
  main_v8
-- ==== Kernel.lean ====
abbrev S64x2048x4 : Shape := ⟨3, ![64, 2048, 4]⟩
abbrev S64x4x2048 : Shape := ⟨3, ![64, 4, 2048]⟩
abbrev S64x1 : Shape := ⟨2, ![64, 1]⟩
abbrev S8x4x2048 : Shape := ⟨3, ![8, 4, 2048]⟩
abbrev S8x4x128 : Shape := ⟨3, ![8, 4, 128]⟩
abbrev S8x1 : Shape := ⟨2, ![8, 1]⟩
abbrev S8x2048 : Shape := ⟨2, ![8, 2048]⟩
abbrev S8x3x2048 : Shape := ⟨3, ![8, 3, 2048]⟩
abbrev S8x3x128 : Shape := ⟨3, ![8, 3, 128]⟩
abbrev S8x128 : Shape := ⟨2, ![8, 128]⟩
abbrev S8x2048x128 : Shape := ⟨3, ![8, 2048, 128]⟩
abbrev S8x2048x1 : Shape := ⟨3, ![8, 2048, 1]⟩
abbrev S8x1x128 : Shape := ⟨3, ![8, 1, 128]⟩
abbrev S8 : Shape := ⟨1, ![8]⟩
abbrev S_ : Shape := ⟨0, ![]⟩

abbrev nBuf : Space → Nat
  | .hbm => 7
  | .vmem => 7
  | .smem => 0
  | _ => 0

abbrev bufTy : (tb : Table) → Fin (tcTables nBuf tb) → BufTy
  | .hbm, ⟨0, _⟩ => ⟨S64x2048x4, .f32⟩
  | .hbm, ⟨1, _⟩ => ⟨S64x2048x4, .f32⟩
  | .hbm, ⟨2, _⟩ => ⟨S64x4x2048, .f32⟩
  | .hbm, ⟨3, _⟩ => ⟨S64x4x2048, .f32⟩
  | .hbm, ⟨4, _⟩ => ⟨S64x1, .f32⟩
  | .hbm, ⟨5, _⟩ => ⟨S_, .f32⟩
  | .hbm, ⟨6, _⟩ => ⟨S_, .f32⟩
  | .local _ .vmem, ⟨0, _⟩ => ⟨S8x4x2048, .f32⟩
  | .local _ .vmem, ⟨1, _⟩ => ⟨S8x4x128, .f32⟩
  | .local _ .vmem, ⟨2, _⟩ => ⟨S8x4x128, .f32⟩
  | .local _ .vmem, ⟨3, _⟩ => ⟨S8x1, .f32⟩
  | .local _ .vmem, ⟨4, _⟩ => ⟨S8x1, .f32⟩
  | .local _ .vmem, ⟨5, _⟩ => ⟨S8x2048, .f32⟩
  | .local _ .vmem, ⟨6, _⟩ => ⟨S8x1, .f32⟩
  | _, _ => ⟨S64x2048x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v43 : BitVec 1 := Scalar.cmpi .eq arg1 c15_i32
  let v44 : BitVec 32 := Scalar.extui v43
  let c0_i32_23 : BitVec 32 := 0#32
  let v45 : BitVec 1 := Scalar.cmpi .ne v44 c0_i32_23
  v45

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S8x4x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S8x4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  transposes_S64x2048x4_S64x4x2048_0_2_1 : S64x2048x4.Transposes [0, 2, 1] S64x4x2048
  inb_S8x4x2048_S8x4x2048_0_0_0 : ∀ a, (![0, 0, 0] : Fin 3 → Nat) a + S8x4x2048.size a ≤ S8x4x2048.size a
  h_S8x4x2048 : 0 < S8x4x2048.numel
  shapeCasts_S8x4x2048_S8x4x2048 : S8x4x2048.ShapeCasts S8x4x2048
  inb_S8x4x128_S8x4x128_0_0_0 : ∀ a, (![0, 0, 0] : Fin 3 → Nat) a + S8x4x128.size a ≤ S8x4x128.size a
  h_S8x4x128 : 0 < S8x4x128.numel
  shapeCasts_S8x4x128_S8x4x128 : S8x4x128.ShapeCasts S8x4x128
  slices_S8x4x2048_o0_1_0_S8x3x2048 : S8x4x2048.Slices ![0, 1, 0] S8x3x2048
  slices_S8x4x128_o0_1_0_S8x3x128 : S8x4x128.Slices ![0, 1, 0] S8x3x128
  reduces_S8x3x2048_S8x2048 : S8x3x2048.Reduces [1] S8x2048
  reduces_S8x3x128_S8x128 : S8x3x128.Reduces [1] S8x128
  shapeCasts_S8x2048_S8x2048x1 : S8x2048.ShapeCasts S8x2048x1
  shapeCasts_S8x128_S8x1x128 : S8x128.ShapeCasts S8x1x128
  broadcasts_S8x2048x1_S8x2048x128 : S8x2048x1.Broadcasts S8x2048x128
  broadcasts_S8x1x128_S8x2048x128 : S8x1x128.Broadcasts S8x2048x128
  inb_S8x2048_S8x2048_0_0 : ∀ a, (![0, 0] : Fin 2 → Nat) a + S8x2048.size a ≤ S8x2048.size a
  h_S8x2048 : 0 < S8x2048.numel
  shapeCasts_S8x2048_S8x2048 : S8x2048.ShapeCasts S8x2048
  inb_S8x1_S8x1_0_0 : ∀ a, (![0, 0] : Fin 2 → Nat) a + S8x1.size a ≤ S8x1.size a
  h_S8x1 : 0 < S8x1.numel
  shapeCasts_S8x1_S8x1 : S8x1.ShapeCasts S8x1
  reduces_S8x2048x128_S8x2048 : S8x2048x128.Reduces [2] S8x2048
  reduces_S8x2048x128_S8x128 : S8x2048x128.Reduces [1] S8x128
  reduces_S8x128_S8 : S8x128.Reduces [1] S8
  shapeCasts_S8_S8x1 : S8.ShapeCasts S8x1
  reduces_S8x2048_S8 : S8x2048.Reduces [1] S8
  reducesTo_S64x1_S_d0_1 : S64x1.ReducesTo [0, 1] S_
  h_S_ : 0 < S_.numel
  dot_S8x3x2048_S8x3x128_S8x2048x128_1_1_2_2_0_0_wf : DotDims.WF S8x3x2048 S8x3x128 S8x2048x128 [1] [1] [2] [2] [0] [0]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8x4x2048.size a ≤ S64x4x2048.size a
  hwx0_0 : ∀ i : grid0.Coords, EltTy.bits .f32 = 32 ∨ (Rect.block (s := S64x4x2048) S8x4x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x4x128.size a ≤ S64x4x2048.size a
  hwx0_1 : ∀ i : grid0.Coords, EltTy.bits .f32 = 32 ∨ (Rect.block (s := S64x4x2048) S8x4x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1.size a ≤ S64x1.size a
  hwx0_2 : ∀ i : grid0.Coords, EltTy.bits .f32 = 32 ∨ (Rect.block (s := S64x1) S8x1.size (cc0_transform_2 i) (hinb0_2 i)).WholeWords (EltTy.packing .f32)

variable [Facts₀]

def dot_S8x3x2048_S8x3x128_S8x2048x128_1_1_2_2_0_0 : DotDims S8x3x2048 S8x3x128 S8x2048x128 where
  lhsContracting := [1]
  rhsContracting := [1]
  lhsNonContracting := [2]
  rhsNonContracting := [2]
  lhsBatch := [0]
  rhsBatch := [0]
  wf := dot_S8x3x2048_S8x3x128_S8x2048x128_1_1_2_2_0_0_wf

abbrev win0_0 : Pipeline.Window sig grid0 :=
  Pipeline.Window.ofSpec (Memref.whole main_v0) S8x4x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x4x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S64x2048x4 : Shape := ⟨3, ![64, 2048, 4]⟩
abbrev S64x2048x3 : Shape := ⟨3, ![64, 2048, 3]⟩
abbrev S_ : Shape := ⟨0, ![]⟩
abbrev S64x2048 : Shape := ⟨2, ![64, 2048]⟩
abbrev S64x2048x2048 : Shape := ⟨3, ![64, 2048, 2048]⟩
abbrev S64x2048x1 : Shape := ⟨3, ![64, 2048, 1]⟩
abbrev S64x1x2048 : Shape := ⟨3, ![64, 1, 2048]⟩

abbrev nBuf : Space → Nat
  | .hbm => 37
  | .vmem => 0
  | .smem => 0
  | _ => 0

abbrev bufTy : (tb : Table) → Fin (tcTables nBuf tb) → BufTy
  | .hbm, ⟨0, _⟩ => ⟨S64x2048x4, .f32⟩
  | .hbm, ⟨1, _⟩ => ⟨S64x2048x4, .f32⟩
  | .hbm, ⟨2, _⟩ => ⟨S64x2048x3, .f32⟩
  | .hbm, ⟨3, _⟩ => ⟨S64x2048x3, .f32⟩
  | .hbm, ⟨4, _⟩ => ⟨S64x2048x3, .f32⟩
  | .hbm, ⟨5, _⟩ => ⟨S_, .f32⟩
  | .hbm, ⟨6, _⟩ => ⟨S64x2048, .f32⟩
  | .hbm, ⟨7, _⟩ => ⟨S64x2048x3, .f32⟩
  | .hbm, ⟨8, _⟩ => ⟨S_, .f32⟩
  | .hbm, ⟨9, _⟩ => ⟨S64x2048, .f32⟩
  | .hbm, ⟨10, _⟩ => ⟨S64x2048x2048, .f32⟩
  | .hbm, ⟨11, _⟩ => ⟨S64x2048x1, .f32⟩
  | .hbm, ⟨12, _⟩ => ⟨S64x1x2048, .f32⟩
  | .hbm, ⟨13, _⟩ => ⟨S64x2048x2048, .f32⟩
  | .hbm, ⟨14, _⟩ => ⟨S64x2048x2048, .f32⟩
  | .hbm, ⟨15, _⟩ => ⟨S64x2048x2048, .f32⟩
  | .hbm, ⟨16, _⟩ => ⟨S_, .f32⟩
  | .hbm, ⟨17, _⟩ => ⟨S64x2048x2048, .f32⟩
  | .hbm, ⟨18, _⟩ => ⟨S64x2048x2048, .f32⟩
  | .hbm, ⟨19, _⟩ => ⟨S64x2048x2048, .f32⟩
  | .hbm, ⟨20, _⟩ => ⟨S_, .f32⟩
  | .hbm, ⟨21, _⟩ => ⟨S64x2048x2048, .f32⟩
  | .hbm, ⟨22, _⟩ => ⟨S64x2048x2048, .f32⟩
  | .hbm, ⟨23, _⟩ => ⟨S_, .f32⟩
  | .hbm, ⟨24, _⟩ => ⟨S64x2048x2048, .f32⟩
  | .hbm, ⟨25, _⟩ => ⟨S64x2048x2048, .f32⟩
  | .hbm, ⟨26, _⟩ => ⟨S64x2048x2048, .f32⟩
  | .hbm, ⟨27, _⟩ => ⟨S_, .f32⟩
  | .hbm, ⟨28, _⟩ => ⟨S64x2048, .f32⟩
  | .hbm, ⟨29, _⟩ => ⟨S_, .f32⟩
  | .hbm, ⟨30, _⟩ => ⟨S64x2048, .f32⟩
  | .hbm, ⟨31, _⟩ => ⟨S64x2048, .f32⟩
  | .hbm, ⟨32, _⟩ => ⟨S_, .f32⟩
  | .hbm, ⟨33, _⟩ => ⟨S64x2048, .f32⟩
  | .hbm, ⟨34, _⟩ => ⟨S64x2048, .f32⟩
  | .hbm, ⟨35, _⟩ => ⟨S_, .f32⟩
  | .hbm, ⟨36, _⟩ => ⟨S_, .f32⟩
  | _, _ => ⟨S64x2048x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_v22 : Ref sig .tc := ⟨.hbm, 31, rfl⟩
abbrev main_cst_6 : Ref sig .tc := ⟨.hbm, 32, rfl⟩
abbrev main_v23 : Ref sig .tc := ⟨.hbm, 33, rfl⟩
abbrev main_v24 : Ref sig .tc := ⟨.hbm, 34, rfl⟩
abbrev main_cst_7 : Ref sig .tc := ⟨.hbm, 35, rfl⟩
abbrev main_v25 : Ref sig .tc := ⟨.hbm, 36, rfl⟩

abbrev nD : Nat := 1
abbrev τ : Topo := Topo.v7x

variable {F : FTy → Type} [FloatOps F]

class Facts₀ : Prop where
  slices_S64x2048x4_S64x2048x3_0_0_1 : S64x2048x4.Slices ![0, 0, 1] S64x2048x3
  reducesTo_S64x2048x3_S64x2048_d2 : S64x2048x3.ReducesTo [2] S64x2048
  h_S_ : 0 < S_.numel
  bcast_S64x2048_S64x2048x1_0_1 : S64x2048.BroadcastsInDim S64x2048x1 (![0, 1] : Fin 2 → Fin S64x2048x1.rank)
  bcast_S64x2048_S64x1x2048_0_2 : S64x2048.BroadcastsInDim S64x1x2048 (![0, 2] : Fin 2 → Fin S64x1x2048.rank)
  bcast_S64x2048x1_S64x2048x2048_0_1_2 : S64x2048x1.BroadcastsInDim S64x2048x2048 (![0, 1, 2] : Fin 3 → Fin S64x2048x2048.rank)
  bcast_S64x1x2048_S64x2048x2048_0_1_2 : S64x1x2048.BroadcastsInDim S64x2048x2048 (![0, 1, 2] : Fin 3 → Fin S64x2048x2048.rank)
  bcast_S_S64x2048x2048 : S_.BroadcastsInDim S64x2048x2048 (![] : Fin 0 → Fin S64x2048x2048.rank)
  reducesTo_S64x2048x2048_S64x2048_d2 : S64x2048x2048.ReducesTo [2] S64x2048
  reducesTo_S64x2048x2048_S64x2048_d1 : S64x2048x2048.ReducesTo [1] S64x2048
  bcast_S_S64x2048 : S_.BroadcastsInDim S64x2048 (![] : Fin 0 → Fin S64x2048.rank)
  reducesTo_S64x2048_S_d0_1 : S64x2048.ReducesTo [0, 1] S_
  dot_S64x2048x3_S64x2048x3_S64x2048x2048_2_2_1_1_0_0_wf : DotDims.WF S64x2048x3 S64x2048x3 S64x2048x2048 [2] [2] [1] [1] [0] [0]

variable [Facts₀]

def dot_S64x2048x3_S64x2048x3_S64x2048x2048_2_2_1_1_0_0 : DotDims S64x2048x3 S64x2048x3 S64x2048x2048 where
  lhsContracting := [2]
  rhsContracting := [2]
  lhsNonContracting := [1]
  rhsNonContracting := [1]
  lhsBatch := [0]
  rhsBatch := [0]
  wf := dot_S64x2048x3_S64x2048x3_S64x2048x2048_2_2_1_1_0_0_wf

class Facts : Prop extends Facts₀ where

variable [Facts]
-- ==== Proof.LibERealMin.lean ====
/-
  General facts about minima, roots and sums over the extended reals, as they arise when a kernel keeps a running minimum
  or a running sum over tiles and a reference reduces a whole axis at once.

    • `wTop`: the f32 word of +∞ is the top element;
    • `sqrt_mono`, `sqrt_nonneg`: the square root of the extended reals (−∞ and negatives to −∞, +∞ to +∞) is monotone, and
      non-negative on non-negative arguments;
    • `fold_min_map`: a monotone map that fixes +∞ commutes with a finite minimum taken from +∞;
    • `fold_min_nonneg`: such a minimum of non-negative terms is non-negative;
    • `mul_sum_nonneg`: a constant factor distributes over a finite sum of NON-NEGATIVE extended reals (true also when a
      term is +∞, which is where distributivity over the extended reals otherwise fails);
    • `sum_blocks`: a sum over the first w·Q naturals is the sum of Q consecutive blocks of w.
-/
import Idealize.ShloMosaic.PureOps.Ideal.Laws

noncomputable section

open Idealize.ShloMosaic

namespace Cert.LibERealMin

/-- The word of `+∞` is the top of the extended reals. -/
theorem wTop : Ideal.ofBits .f32 0x7F800000#32 = (⊤ : EReal) := by simp [Ideal.ofBits, Ideal.ieee]

/-- The square root of the extended reals (`-∞` and negatives to `-∞`, `+∞` to `+∞`) is monotone. -/
theorem sqrt_mono : Monotone Ideal.sqrt := by
  intro x y hxy
  induction x using EReal.rec with
  | bot => exact bot_le
  | top => rw [top_le_iff.mp hxy]
  | coe r =>
    induction y using EReal.rec with
    | bot => exact absurd hxy (by simp)
    | top => exact le_top
    | coe s =>
      have hrs : r ≤ s := EReal.coe_le_coe_iff.mp hxy
      simp only [Ideal.sqrt_coe]
      split_ifs with h1 h2
      · exact le_refl _
      · exact bot_le
      · exfalso; linarith
      · exact EReal.coe_le_coe_iff.mpr (Real.sqrt_le_sqrt hrs)

/-- It is non-negative on non-negative arguments. -/
theorem sqrt_nonneg {y : EReal} (hy : 0 ≤ y) : 0 ≤ Ideal.sqrt y := by
  induction y using EReal.rec with
  | bot => exact absurd hy (by simp)
  | top => exact le_top
  | coe r =>
    have hr : 0 ≤ r := EReal.coe_nonneg.mp hy
    simp only [Ideal.sqrt_coe, if_neg (not_lt.mpr hr)]
    exact EReal.coe_nonneg.mpr (Real.sqrt_nonneg r)

/-- A monotone map that fixes `+∞` commutes with a finite minimum taken from `+∞`. -/
theorem fold_min_map {ι : Type*} {f : EReal → EReal} (hf : Monotone f) (htop : f ⊤ = ⊤) (s : Finset ι) (h : ι → EReal) :
    s.fold min (Ideal.ofBits .f32 0x7F800000#32) (fun i => f (h i)) = f (s.fold min (Ideal.ofBits .f32 0x7F800000#32) h) := by
  have e := Finset.fold_hom (op := min) (op' := min) (s := s) (b := Ideal.ofBits .f32 0x7F800000#32) (f := h) (m := f)
    (fun x y => hf.map_min)
  rw [← e, wTop, htop]

/-- A finite minimum, taken from `+∞`, of non-negative terms is non-negative. -/
theorem fold_min_nonneg {ι : Type*} (s : Finset ι) (h : ι → EReal) (hh : ∀ i, 0 ≤ h i) :
    0 ≤ s.fold min (Ideal.ofBits .f32 0x7F800000#32) h := by
  rw [Finset.le_fold_min, wTop]
  exact ⟨le_top, fun i _ => hh i⟩

/-- A factor across a finite sum of non-negative extended reals. -/
theorem mul_sum_nonneg {ι : Type*} [DecidableEq ι] (c : EReal) (s : Finset ι) (x : ι → EReal) (hx : ∀ i, 0 ≤ x i) :
    c * ∑ i ∈ s, x i = ∑ i ∈ s, c * x i := by
  induction s using Finset.induction_on with
  | empty => simp
  | insert a s ha ih =>
    rw [Finset.sum_insert ha, Finset.sum_insert ha, EReal.left_distrib_of_nonneg (hx a) (Finset.sum_nonneg fun i _ => hx i), ih]

/-- A sum over the first `w·Q` naturals, block by block. -/
theorem sum_blocks {M : Type*} [AddCommMonoid M] (w : ℕ) (x : ℕ → M) (Q : ℕ) :
    ∑ m ∈ Finset.range (w * Q), x m = ∑ q ∈ Finset.range Q, ∑ j ∈ Finset.range w, x (w * q + j) := by
  induction Q with
  | zero => simp
  | succ Q ih =>
    rw [Nat.mul_succ, Finset.sum_range_add, ih]
    exact (Finset.sum_range_succ (fun q => ∑ j ∈ Finset.range w, x (w * q + j)) Q).symm

end Cert.LibERealMin

end
-- ==== Proof.ChamferLaw.lean ====
/-
  The law that joins the two sides, over the extended reals, for an arbitrary non-negative table
  `D β n m` (the clamped squared distance between point `n` of the first cloud and point `m` of the
  second, in batch `β`).

  (The facts about minima, roots and sums of extended reals that do not depend on this table are in the imported
  general module.)  Write `g x = √(x + ε)`.  `g` is monotone, sends `+∞` to `+∞` and non-negative arguments to
  non-negative values.  Hence
    • `g` commutes with a finite minimum taken from `+∞` (`g_fold_min`): the nearest neighbour may be
      chosen in squared distance and the root taken afterwards;
    • a minimum over 2048 columns is the running minimum of the sixteen minima over 128 consecutive
      columns (`runMin_eq`), by the universal property of a minimum;
    • a sum over 2048 columns is the sum of the sixteen sums over 128 consecutive columns
      (`sum_tiles`);
    • a constant factor distributes over a finite sum of NON-NEGATIVE extended reals (`mul_sum_nonneg`);
      non-negativity is what makes this true when a term is `+∞`.
  Together: half the sum of the roots of the column minima, accumulated tile by tile, plus half the sum
  of the roots of the row minima, is the sum over rows of (row minimum of roots + column minimum of
  roots) · ½ (`row_total`).
-/
import proofs.«146583_j49727131353178_2_alg».proof.Proof.LibERealMin
import Idealize.ShloMosaic.PureOps.Ideal.Laws

noncomputable section

open Idealize.ShloMosaic

namespace Cert.Chamfer

open Cert.LibERealMin

/-! ## The literal ε -/

/-- The additive `ε` under the root is a non-negative real. -/
theorem wEps_nonneg : (0 : EReal) ≤ Ideal.ofBits .f32 0x24E69595#32 := by
  simp [Ideal.ofBits, Ideal.ieee, -EReal.coe_mul]

/-! ## The root of a shifted argument -/

/-- `g x = √(x + ε)`. -/
def g (x : EReal) : EReal := Ideal.sqrt (x + Ideal.ofBits .f32 0x24E69595#32)

theorem g_mono : Monotone g := fun _ _ h => sqrt_mono (add_le_add h le_rfl)

theorem g_min (x y : EReal) : g (min x y) = min (g x) (g y) := g_mono.map_min

theorem g_top : g ⊤ = ⊤ := by
  unfold g
  rw [EReal.top_add_of_ne_bot (ne_bot_of_le_ne_bot (by simp) wEps_nonneg)]
  rfl

theorem g_nonneg {x : EReal} (hx : 0 ≤ x) : 0 ≤ g x := sqrt_nonneg (add_nonneg hx wEps_nonneg)

/-- The root commutes with a finite minimum taken from `+∞`. -/
theorem g_fold_min {ι : Type*} (s : Finset ι) (h : ι → EReal) :
    s.fold min (Ideal.ofBits .f32 0x7F800000#32) (fun i => g (h i)) = g (s.fold min (Ideal.ofBits .f32 0x7F800000#32) h) :=
  fold_min_map g_mono g_top s h

/-! ## Sixteen tiles of 128 columns -/

/-- A sum over the first `128·Q` naturals, tile by tile. -/
theorem sum_tiles (x : ℕ → EReal) (Q : ℕ) :
    ∑ m ∈ Finset.range (128 * Q), x m = ∑ q ∈ Finset.range Q, ∑ j ∈ Finset.range 128, x (128 * q + j) :=
  sum_blocks 128 x Q

variable (D : ℕ → ℕ → ℕ → EReal)

/-- The minimum of row `n` over the 128 columns of tile `q`. -/
def tileMin (β n q : ℕ) : EReal :=
  (Finset.univ : Finset (Fin 128)).fold min (Ideal.ofBits .f32 0x7F800000#32) (fun j => D β n (128 * q + j.val))

/-- The running minimum of row `n` after tile `q`: reset to `+∞` before tile 0. -/
def runMin (β n : ℕ) : ℕ → EReal
  | 0 => min (Ideal.ofBits .f32 0x7F800000#32) (tileMin D β n 0)
  | q + 1 => min (runMin β n q) (tileMin D β n (q + 1))

/-- The minimum of row `n` over all 2048 columns. -/
def rowMin (β n : ℕ) : EReal :=
  (Finset.univ : Finset (Fin 2048)).fold min (Ideal.ofBits .f32 0x7F800000#32) (fun m => D β n m.val)

/-- The minimum of column `m` over all 2048 rows. -/
def colMin (β m : ℕ) : EReal :=
  (Finset.univ : Finset (Fin 2048)).fold min (Ideal.ofBits .f32 0x7F800000#32) (fun n => D β n.val m)

theorem runMin_zero (β n : ℕ) :
    runMin D β n 0 = min (Ideal.ofBits .f32 0x7F800000#32) (tileMin D β n 0) := rfl

theorem runMin_succ (β n q : ℕ) : runMin D β n (q + 1) = min (runMin D β n q) (tileMin D β n (q + 1)) := rfl

theorem le_runMin (β n q : ℕ) (c : EReal) :
    c ≤ runMin D β n q ↔ ∀ q' ≤ q, ∀ j : Fin 128, c ≤ D β n (128 * q' + j.val) := by
  induction q with
  | zero =>
    simp only [runMin, tileMin, le_min_iff, Finset.le_fold_min, wTop, le_top, true_and, Finset.mem_univ, forall_true_left]
    exact ⟨fun h q' hq' j => by obtain rfl : q' = 0 := Nat.le_zero.mp hq'; exact h j, fun h j => h 0 le_rfl j⟩
  | succ q ih =>
    simp only [runMin, tileMin, le_min_iff, ih, Finset.le_fold_min, wTop, le_top, true_and, Finset.mem_univ, forall_true_left]
    constructor
    · rintro ⟨h1, h2⟩ q' hq' j
      rcases Nat.lt_or_ge q' (q + 1) with h | h
      · exact h1 q' (Nat.lt_succ_iff.mp h) j
      · obtain rfl : q' = q + 1 := le_antisymm hq' h
        exact h2 j
    · exact fun h => ⟨fun q' hq' j => h q' (Nat.le_succ_of_le hq') j, fun j => h (q + 1) le_rfl j⟩

/-- After the sixteenth tile the running minimum is the minimum over all 2048 columns. -/
theorem runMin_eq (β n : ℕ) : runMin D β n 15 = rowMin D β n := by
  refine eq_of_forall_le_iff fun c => ?_
  rw [le_runMin]
  simp only [rowMin, Finset.le_fold_min, wTop, le_top, true_and, Finset.mem_univ, forall_true_left]
  constructor
  · intro h m
    have hm := m.isLt
    have := h (m.val / 128) (by omega) ⟨m.val % 128, Nat.mod_lt _ (by norm_num)⟩
    rwa [show 128 * (m.val / 128) + m.val % 128 = m.val from Nat.div_add_mod _ _] at this
  · intro h q' hq' j
    have hj := j.isLt
    exact h ⟨128 * q' + j.val, by omega⟩

/-- Half the sum, over the 128 columns of tile `q`, of the roots of the column minima. -/
def tileSum (β q : ℕ) : EReal :=
  Ideal.ofBits .f32 0x3F000000#32 * ∑ j : Fin 128, g (colMin D β (128 * q + j.val))

/-- The running sum after tile `q`: reset to `0` before tile 0. -/
def runSum (β : ℕ) : ℕ → EReal
  | 0 => Ideal.ofBits .f32 0x00000000#32 + tileSum D β 0
  | q + 1 => runSum β q + tileSum D β (q + 1)

theorem runSum_zero (β : ℕ) : runSum D β 0 = Ideal.ofBits .f32 0x00000000#32 + tileSum D β 0 := rfl

theorem runSum_succ (β q : ℕ) : runSum D β (q + 1) = runSum D β q + tileSum D β (q + 1) := rfl

theorem runSum_eq (β q : ℕ) : runSum D β q = ∑ q' ∈ Finset.range (q + 1), tileSum D β q' := by
  induction q with
  | zero => simp [runSum, Ideal.ofBits_zero_f32]
  | succ q ih => rw [runSum, ih, Finset.sum_range_succ (n := q + 1)]

variable (hD : ∀ β n m, 0 ≤ D β n m)
include hD

theorem g_colMin_nonneg (β m : ℕ) : 0 ≤ g (colMin D β m) :=
  g_nonneg (fold_min_nonneg _ _ fun _ => hD _ _ _)

theorem g_rowMin_nonneg (β n : ℕ) : 0 ≤ g (rowMin D β n) :=
  g_nonneg (fold_min_nonneg _ _ fun _ => hD _ _ _)

/-- The sixteen half tile sums are half the sum over all 2048 columns. -/
theorem runSum_total (β : ℕ) :
    runSum D β 15 = Ideal.ofBits .f32 0x3F000000#32 * ∑ m : Fin 2048, g (colMin D β m.val) := by
  rw [runSum_eq]
  have e : ∀ q', tileSum D β q' = ∑ j ∈ Finset.range 128, Ideal.ofBits .f32 0x3F000000#32 * g (colMin D β (128 * q' + j)) := by
    intro q'
    unfold tileSum
    rw [Fin.sum_univ_eq_sum_range (fun j => g (colMin D β (128 * q' + j))) 128,
      mul_sum_nonneg _ _ _ (fun j => g_colMin_nonneg D hD β _)]
  simp only [e]
  rw [← sum_tiles (fun m => Ideal.ofBits .f32 0x3F000000#32 * g (colMin D β m)) 16,
    Fin.sum_univ_eq_sum_range (fun m => g (colMin D β m)) 2048,
    mul_sum_nonneg _ _ _ (fun m => g_colMin_nonneg D hD β _)]

/-- One batch row: the tile-by-tile accumulation plus half the sum of the roots of the running minima is the sum
    over the 2048 points of (root-distance to the nearest point of the other cloud, both ways) · ½. -/
theorem row_total (β : ℕ) :
    runSum D β 15 + Ideal.ofBits .f32 0x3F000000#32 * ∑ n : Fin 2048, g (runMin D β n.val 15)
      = ∑ n : Fin 2048,
          ((Finset.univ : Finset (Fin 2048)).fold min (Ideal.ofBits .f32 0x7F800000#32) (fun m => g (D β n.val m.val))
            + (Finset.univ : Finset (Fin 2048)).fold min (Ideal.ofBits .f32 0x7F800000#32) (fun n' => g (D β n'.val n.val)))
          * Ideal.ofBits .f32 0x3F000000#32 := by
  rw [runSum_total D hD]
  simp only [runMin_eq]
  rw [mul_sum_nonneg _ _ _ (fun m : Fin 2048 => g_colMin_nonneg D hD β m.val),
    mul_sum_nonneg _ _ _ (fun n : Fin 2048 => g_rowMin_nonneg D hD β n.val), ← Finset.sum_add_distrib]
  refine Finset.sum_congr rfl fun n _ => ?_
  rw [g_fold_min, g_fold_min]
  show _ = (g (rowMin D β n.val) + g (colMin D β n.val)) * _
  rw [EReal.right_distrib_of_nonneg (g_rowMin_nonneg D hD β n.val) (g_colMin_nonneg D hD β n.val),
    mul_comm (g _), mul_comm (g _), add_comm]

end Cert.Chamfer

end
-- ==== Proof.Table.lean ====
/-
  The table both programs compute: for two clouds `x0`, `x1` of shape [64, 2048, 4] (batch, point, channel), the
  clamped squared distance over the three spatial channels 1, 2, 3,
      Dn x0 x1 β n m = max(|p|² + |q|² − 2·⟨p, q⟩, 0),   p = x0[β, n, 1:4],  q = x1[β, m, 1:4].
  It is stated over natural-number indices (zero outside the arrays) so that a running minimum or sum over column
  tiles is an induction over naturals.  It is non-negative whatever the entries, because of the outer maximum with 0.
-/
import Idealize.ShloMosaic.Lib.ValueIdx
import Idealize.ShloMosaic.PureOps.Ideal.Laws

noncomputable section

open Idealize.ShloMosaic Idealize.ShloMosaic.ValueIdx

namespace Cert.Chamfer

/-- Channel `d` of point `n` of batch `β`; zero outside the array. -/
def coordN (x : (⟨3, ![64, 2048, 4]⟩ : Shape).Idx → EReal) (β n d : ℕ) : EReal :=
  if h : β < 64 ∧ n < 2048 ∧ d < 4 then x (ix3 ⟨β, h.1⟩ ⟨n, h.2.1⟩ ⟨d, h.2.2⟩) else 0

theorem coordN_eq (x : (⟨3, ![64, 2048, 4]⟩ : Shape).Idx → EReal) (β : Fin 64) (n : Fin 2048) (d : Fin 4) :
    coordN x β.val n.val d.val = x (ix3 β n d) := by
  unfold coordN
  rw [dif_pos ⟨β.isLt, n.isLt, d.isLt⟩]

/-- The clamped squared distance between point `n` of the first cloud and point `m` of the second, in batch `β`. -/
def Dn (x0 x1 : (⟨3, ![64, 2048, 4]⟩ : Shape).Idx → EReal) (β n m : ℕ) : EReal :=
  max (((∑ k : Fin 3, coordN x0 β n (1 + k.val) * coordN x0 β n (1 + k.val))
          + (∑ k : Fin 3, coordN x1 β m (1 + k.val) * coordN x1 β m (1 + k.val)))
        - Ideal.ofBits .f32 0x40000000#32 * ∑ k : Fin 3, coordN x0 β n (1 + k.val) * coordN x1 β m (1 + k.val))
      (Ideal.ofBits .f32 0x00000000#32)

theorem Dn_nonneg (x0 x1 : (⟨3, ![64, 2048, 4]⟩ : Shape).Idx → EReal) (β n m : ℕ) : 0 ≤ Dn x0 x1 β n m :=
  le_max_of_le_right (by rw [Ideal.ofBits_zero_f32])

end Cert.Chamfer

end
-- ==== Proof.RefValue.lean ====
/-
  The reference, read down to the table of clamped squared distances.

  Its result is  0 + Σ over (batch β, point n) of (min over m of √(D β n m + ε) + min over n' of √(D β n' n + ε)) · ½ :
  the nearest point of the other cloud in each direction, the roots taken BEFORE the minima.  Each minimum is a fold of
  `min` from +∞ over one axis of the [64, 2048, 2048] table of roots; each table entry is the squared norm of the two
  points (sums over the three spatial channels) minus twice their product, clamped at 0.
-/
import proofs.«146583_j49727131353178_2_alg».proof.Proof.Gen.ReferenceIdeal.Read
import proofs.«146583_j49727131353178_2_alg».proof.Proof.ChamferLaw
import proofs.«146583_j49727131353178_2_alg».proof.Proof.Table
import Idealize.ShloMosaic.Lib.ValueIdx
import Idealize.ShloMosaic.PureOps.Ideal.Laws

noncomputable section

open Idealize.ShloMosaic Idealize.ShloMosaic.ValueIdx

namespace Cert.ReferenceIdeal.RefValue

open Cert.ReferenceIdeal Cert.ReferenceIdeal.Gen Cert.ReferenceIdeal.Read Cert.Chamfer

variable (x0 x1 : (⟨S64x2048x4, .f32⟩ : BufTy).Contents (Elt Ideal))

/-- Spatial coordinate `k` (of three) sits at channel `1 + k` (of four). -/
abbrev ch (k : Fin 3) : Fin 4 := ⟨1 + k.val, by have := k.isLt; omega⟩

/-- The squared norm of point `n` of the first cloud. -/
theorem nsq0 (β : Fin 64) (n : Fin 2048) :
    val_main_v3 (F := Ideal) x0 (ix2 β n)
      = Ideal.ofBits .f32 0x00000000#32 + ∑ k : Fin 3, coordN x0 β.val n.val (1 + k.val) * coordN x0 β.val n.val (1 + k.val) := by
  rw [val_main_v3_apply, val_main_cst_apply]
  refine congrArg (_ + ·) (Finset.sum_congr rfl fun k _ => ?_)
  rw [val_main_v2_apply, val_main_v0_apply]
  have e : idx_main_v0 (idx_main_v3 (ix2 β n) k) = ix3 β n (ch k) :=
    funext fun a => Fin.ext (by match a with | ⟨0, _⟩ => rfl | ⟨1, _⟩ => rfl | ⟨2, _⟩ => rfl)
  rw [e]
  exact congrArg₂ (· * ·) (coordN_eq x0 β n (ch k)).symm (coordN_eq x0 β n (ch k)).symm

/-- The squared norm of point `m` of the second cloud. -/
theorem nsq1 (β : Fin 64) (m : Fin 2048) :
    val_main_v5 (F := Ideal) x1 (ix2 β m)
      = Ideal.ofBits .f32 0x00000000#32 + ∑ k : Fin 3, coordN x1 β.val m.val (1 + k.val) * coordN x1 β.val m.val (1 + k.val) := by
  rw [val_main_v5_apply, val_main_cst_0_apply]
  refine congrArg (_ + ·) (Finset.sum_congr rfl fun k _ => ?_)
  rw [val_main_v4_apply, val_main_v1_apply]
  have e : idx_main_v1 (idx_main_v5 (ix2 β m) k) = ix3 β m (ch k) :=
    funext fun a => Fin.ext (by match a with | ⟨0, _⟩ => rfl | ⟨1, _⟩ => rfl | ⟨2, _⟩ => rfl)
  rw [e]
  exact congrArg₂ (· * ·) (coordN_eq x1 β m (ch k)).symm (coordN_eq x1 β m (ch k)).symm

/-- The product of point `n` of the first cloud with point `m` of the second. -/
theorem dot01 (β : Fin 64) (n m : Fin 2048) :
    val_main_v6 (F := Ideal) x0 x1 (ix3 β n m)
      = ∑ k : Fin 3, coordN x0 β.val n.val (1 + k.val) * coordN x1 β.val m.val (1 + k.val) := by
  rw [val_main_v6_apply]
  refine Finset.sum_congr rfl fun k _ => ?_
  rw [val_main_v0_apply, val_main_v1_apply]
  have e0 : idx_main_v0 (lidx_main_v6 (ix3 β n m) k) = ix3 β n (ch k) :=
    funext fun a => Fin.ext (by match a with | ⟨0, _⟩ => rfl | ⟨1, _⟩ => rfl | ⟨2, _⟩ => rfl)
  have e1 : idx_main_v1 (ridx_main_v6 (ix3 β n m) k) = ix3 β m (ch k) :=
    funext fun a => Fin.ext (by match a with | ⟨0, _⟩ => rfl | ⟨1, _⟩ => rfl | ⟨2, _⟩ => rfl)
  rw [e0, e1]
  exact congrArg₂ (· * ·) (coordN_eq x0 β n (ch k)).symm (coordN_eq x1 β m (ch k)).symm

/-- The table entry. -/
theorem v16_eq (β : Fin 64) (n m : Fin 2048) :
    val_main_v16 (F := Ideal) x0 x1 (ix3 β n m) = Dn x0 x1 β.val n.val m.val := by
  rw [val_main_v16_apply, val_main_v15_apply, val_main_cst_2_apply, val_main_v14_apply, val_main_v13_apply, val_main_v12_apply,
    val_main_cst_1_apply, val_main_v11_apply, val_main_v9_apply, val_main_v7_apply, val_main_v10_apply, val_main_v8_apply, dot01]
  have e7 : idx_main_v7 (idx_main_v9 (ix3 β n m)) = ix2 β n :=
    funext fun a => Fin.ext (by match a with | ⟨0, _⟩ => rfl | ⟨1, _⟩ => rfl)
  have e8 : idx_main_v8 (idx_main_v10 (ix3 β n m)) = ix2 β m :=
    funext fun a => Fin.ext (by match a with | ⟨0, _⟩ => rfl | ⟨1, _⟩ => rfl)
  rw [e7, e8, nsq0, nsq1]
  unfold Dn
  simp only [Ideal.maximumf_def, Ideal.subf_def, Ideal.addf_def, Ideal.mulf_def, Ideal.ofBits_def, Ideal.ofBits_zero_f32, zero_add]

/-- The root of a shifted table entry. -/
theorem v19_eq (β : Fin 64) (n m : Fin 2048) :
    val_main_v19 (F := Ideal) x0 x1 (ix3 β n m) = g (Dn x0 x1 β.val n.val m.val) := by
  rw [val_main_v19_apply, val_main_v18_apply, val_main_v17_apply, val_main_cst_3_apply, v16_eq]
  rfl

theorem red2 : S64x2048x2048.Reduces [2] S64x2048 := by decide
theorem red1 : S64x2048x2048.Reduces [1] S64x2048 := by decide

/-- The minimum over the second cloud, for point `n` of the first. -/
theorem v20_eq (β : Fin 64) (n : Fin 2048) :
    val_main_v20 (F := Ideal) x0 x1 (ix2 β n)
      = (Finset.univ : Finset (Fin 2048)).fold min (Ideal.ofBits .f32 0x7F800000#32) (fun m => g (Dn x0 x1 β.val n.val m.val)) := by
  unfold val_main_v20
  refine (Host.reduce_eq_fold_single FloatOps.minimumf _ _ reducesTo_S64x2048x2048_S64x2048_d2 red2 h_S_ (ix2 β n)).trans ?_
  show (Finset.univ : Finset (Fin 2048)).fold min (Ideal.ofBits .f32 0x7F800000#32)
      (fun m : Fin 2048 => val_main_v19 (F := Ideal) x0 x1 (red2.lift (ix2 β n) m)) = _
  refine Finset.fold_congr fun m _ => ?_
  have e : red2.lift (ix2 β n) m = ix3 β n m :=
    funext fun a => Fin.ext (by match a with | ⟨0, _⟩ => rfl | ⟨1, _⟩ => rfl | ⟨2, _⟩ => rfl)
  rw [e, v19_eq]

/-- The minimum over the first cloud, for point `n` of the second. -/
theorem v21_eq (β : Fin 64) (n : Fin 2048) :
    val_main_v21 (F := Ideal) x0 x1 (ix2 β n)
      = (Finset.univ : Finset (Fin 2048)).fold min (Ideal.ofBits .f32 0x7F800000#32) (fun n' => g (Dn x0 x1 β.val n'.val n.val)) := by
  unfold val_main_v21
  refine (Host.reduce_eq_fold_single FloatOps.minimumf _ _ reducesTo_S64x2048x2048_S64x2048_d1 red1 h_S_ (ix2 β n)).trans ?_
  show (Finset.univ : Finset (Fin 2048)).fold min (Ideal.ofBits .f32 0x7F800000#32)
      (fun n' : Fin 2048 => val_main_v19 (F := Ideal) x0 x1 (red1.lift (ix2 β n) n')) = _
  refine Finset.fold_congr fun n' _ => ?_
  have e : red1.lift (ix2 β n) n' = ix3 β n' n :=
    funext fun a => Fin.ext (by match a with | ⟨0, _⟩ => rfl | ⟨1, _⟩ => rfl | ⟨2, _⟩ => rfl)
  rw [e, v19_eq]

/-- The reference's result. -/
theorem total (i : S_.Idx) :
    val_main_v25 (F := Ideal) x0 x1 i
      = Ideal.ofBits .f32 0x00000000#32 + ∑ β : Fin 64, ∑ n : Fin 2048,
          ((Finset.univ : Finset (Fin 2048)).fold min (Ideal.ofBits .f32 0x7F800000#32) (fun m => g (Dn x0 x1 β.val n.val m.val))
            + (Finset.univ : Finset (Fin 2048)).fold min (Ideal.ofBits .f32 0x7F800000#32) (fun n' => g (Dn x0 x1 β.val n'.val n.val)))
          * Ideal.ofBits .f32 0x3F000000#32 := by
  rw [val_main_v25_apply, val_main_cst_7_apply, sum_idx2]
  refine congrArg (_ + ·) (Finset.sum_congr rfl fun β _ => Finset.sum_congr rfl fun n _ => ?_)
  rw [val_main_v24_apply, val_main_v23_apply, val_main_cst_6_apply, val_main_v22_apply, v20_eq, v21_eq]
  rfl

end Cert.ReferenceIdeal.RefValue

end
-- ==== Proof.CaseValues.lean ====
/-
  What one grid point leaves behind, as values.  The body keeps two accumulators across the sixteen column tiles of a
  batch tile: the running row minima (an [8, 2048] block) and the running half-sum (an [8, 1] column).
    • at the first tile it resets them (to +∞ and to 0) and then updates them;
    • at a middle tile it updates them;
    • at the last tile it updates them, adds half the sum of the roots of the finished row minima to the column,
      and copies the column to the output block.
  Each lemma reads the stores the run found (the last covering store wins; a load that follows a store reads what was
  stored) and names the result by the body's pure terms.
-/
import proofs.«146583_j49727131353178_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.CaseValues

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The row-minima update of one tile: the old minima against the tile's minima. -/
abbrev minStep (x0 : Vec F S8x4x2048 .f32) (x1 : Vec F S8x4x128 .f32) (old : Vec F S8x2048 .f32) : Vec F S8x2048 .f32 :=
  k0_pay6 x0 x1 old

/-- The half-sum update of one tile: the old column plus half the tile's sum of roots of column minima. -/
abbrev sumStep (x0 : Vec F S8x4x2048 .f32) (x1 : Vec F S8x4x128 .f32) (old : Vec F S8x1 .f32) : Vec F S8x1 .f32 :=
  k0_pay1 (k0_pay7 x0 x1) old

/-- First tile, row minima: reset to +∞, then updated. -/
theorem minA (c : Dev nD) (i : grid0.Coords) (a2 : Memref sig .tc .vmem S8x4x2048 .f32) (h2 : a2.IsWhole)
    (a3 : Memref sig .tc .vmem S8x4x128 .f32) (h3 : a3.IsWhole) (a4 : Memref sig .tc .vmem S8x1 .f32) (h4 : a4.IsWhole)
    (a5 : Memref sig .tc .vmem S8x2048 .f32) (h5 : a5.IsWhole) (a6 : Memref sig .tc .vmem S8x1 .f32) (h6 : a6.IsWhole)
    (hc0 : cond0_0 i) (hc1 : ¬cond0_1 i) (x0 : Vec F S8x4x2048 .f32) (x1 : Vec F S8x4x128 .f32) :
    sout0_A_0 c i a2 h2 a3 h3 a4 h4 a5 h5 a6 h6 hc0 hc1 x0 x1 = minStep x0 x1 (k0_pay4 (F := F)) := by
  unfold sout0_A_0
  rw [View.read_writes_eq_canon _ _ _ (scover0_A_0 c i a2 h2 a3 h3 a4 h4 a5 h5 a6 h6 hc0 hc1 x0 x1)]
  unfold kernelRun0_A
  dsimp only
  sl_unfold_words
  rw [View.canon_cons_unit_zero (S := S8x2048) hz2, View.readCov_unit_zero (S := S8x2048) _ hz2]
  simp only [View.readAt_eq_ld, h2.read_unread, h3.read_unread, h5.read_unread, h6.read_unread,
    View.ld_unit_zero (S := S8x4x2048) hz3, View.ld_unit_zero (S := S8x4x128) hz3,
    View.ld_unit_zero (S := S8x2048) hz2, View.ld_unit_zero (S := S8x1) hz2]

/-- First tile, half-sum: reset to 0, then updated. -/
theorem sumA (c : Dev nD) (i : grid0.Coords) (a2 : Memref sig .tc .vmem S8x4x2048 .f32) (h2 : a2.IsWhole)
    (a3 : Memref sig .tc .vmem S8x4x128 .f32) (h3 : a3.IsWhole) (a4 : Memref sig .tc .vmem S8x1 .f32) (h4 : a4.IsWhole)
    (a5 : Memref sig .tc .vmem S8x2048 .f32) (h5 : a5.IsWhole) (a6 : Memref sig .tc .vmem S8x1 .f32) (h6 : a6.IsWhole)
    (hc0 : cond0_0 i) (hc1 : ¬cond0_1 i) (x0 : Vec F S8x4x2048 .f32) (x1 : Vec F S8x4x128 .f32) :
    sout0_A_1 c i a2 h2 a3 h3 a4 h4 a5 h5 a6 h6 hc0 hc1 x0 x1 = sumStep x0 x1 (k0_pay5 (F := F)) := by
  unfold sout0_A_1
  rw [View.read_writes_eq_canon _ _ _ (scover0_A_1 c i a2 h2 a3 h3 a4 h4 a5 h5 a6 h6 hc0 hc1 x0 x1)]
  unfold kernelRun0_A
  dsimp only
  sl_unfold_words
  rw [View.canon_cons_unit_zero (S := S8x1) hz2, View.readCov_unit_zero (S := S8x1) _ hz2]
  simp only [View.readAt_eq_ld, h2.read_unread, h3.read_unread, h5.read_unread, h6.read_unread,
    View.ld_unit_zero (S := S8x4x2048) hz3, View.ld_unit_zero (S := S8x4x128) hz3,
    View.ld_unit_zero (S := S8x2048) hz2, View.ld_unit_zero (S := S8x1) hz2]

/-- Middle tile, row minima. -/
theorem minB (c : Dev nD) (i : grid0.Coords) (a2 : Memref sig .tc .vmem S8x4x2048 .f32) (h2 : a2.IsWhole)
    (a3 : Memref sig .tc .vmem S8x4x128 .f32) (h3 : a3.IsWhole) (a4 : Memref sig .tc .vmem S8x1 .f32) (h4 : a4.IsWhole)
    (a5 : Memref sig .tc .vmem S8x2048 .f32) (h5 : a5.IsWhole) (a6 : Memref sig .tc .vmem S8x1 .f32) (h6 : a6.IsWhole)
    (hc0 : ¬cond0_0 i) (hc1 : ¬cond0_1 i) (x0 : Vec F S8x4x2048 .f32) (x1 : Vec F S8x4x128 .f32)
    (xs0 : Vec F S8x2048 .f32) (xs1 : Vec F S8x1 .f32) :
    sout0_B_0 c i a2 h2 a3 h3 a4 h4 a5 h5 a6 h6 hc0 hc1 x0 x1 xs0 xs1 = minStep x0 x1 xs0 := by
  unfold sout0_B_0
  rw [View.read_writes_eq_canon _ _ _ (scover0_B_0 c i a2 h2 a3 h3 a4 h4 a5 h5 a6 h6 hc0 hc1 x0 x1 xs0 xs1)]
  unfold kernelRun0_B
  dsimp only
  sl_unfold_words
  rw [View.canon_unit_zero hz2]
  simp only [View.readAt_eq_ld, h2.read_unread, h3.read_unread, h5.read_unread, h6.read_unread,
    View.ld_unit_zero (S := S8x4x2048) hz3, View.ld_unit_zero (S := S8x4x128) hz3,
    View.ld_unit_zero (S := S8x2048) hz2, View.ld_unit_zero (S := S8x1) hz2]

/-- Middle tile, half-sum. -/
theorem sumB (c : Dev nD) (i : grid0.Coords) (a2 : Memref sig .tc .vmem S8x4x2048 .f32) (h2 : a2.IsWhole)
    (a3 : Memref sig .tc .vmem S8x4x128 .f32) (h3 : a3.IsWhole) (a4 : Memref sig .tc .vmem S8x1 .f32) (h4 : a4.IsWhole)
    (a5 : Memref sig .tc .vmem S8x2048 .f32) (h5 : a5.IsWhole) (a6 : Memref sig .tc .vmem S8x1 .f32) (h6 : a6.IsWhole)
    (hc0 : ¬cond0_0 i) (hc1 : ¬cond0_1 i) (x0 : Vec F S8x4x2048 .f32) (x1 : Vec F S8x4x128 .f32)
    (xs0 : Vec F S8x2048 .f32) (xs1 : Vec F S8x1 .f32) :
    sout0_B_1 c i a2 h2 a3 h3 a4 h4 a5 h5 a6 h6 hc0 hc1 x0 x1 xs0 xs1 = sumStep x0 x1 xs1 := by
  unfold sout0_B_1
  rw [View.read_writes_eq_canon _ _ _ (scover0_B_1 c i a2 h2 a3 h3 a4 h4 a5 h5 a6 h6 hc0 hc1 x0 x1 xs0 xs1)]
  unfold kernelRun0_B
  dsimp only
  sl_unfold_words
  rw [View.canon_unit_zero hz2]
  simp only [View.readAt_eq_ld, h2.read_unread, h3.read_unread, h5.read_unread, h6.read_unread,
    View.ld_unit_zero (S := S8x4x2048) hz3, View.ld_unit_zero (S := S8x4x128) hz3,
    View.ld_unit_zero (S := S8x2048) hz2, View.ld_unit_zero (S := S8x1) hz2]

/-- Last tile, row minima. -/
theorem minC (c : Dev nD) (i : grid0.Coords) (a2 : Memref sig .tc .vmem S8x4x2048 .f32) (h2 : a2.IsWhole)
    (a3 : Memref sig .tc .vmem S8x4x128 .f32) (h3 : a3.IsWhole) (a4 : Memref sig .tc .vmem S8x1 .f32) (h4 : a4.IsWhole)
    (a5 : Memref sig .tc .vmem S8x2048 .f32) (h5 : a5.IsWhole) (a6 : Memref sig .tc .vmem S8x1 .f32) (h6 : a6.IsWhole)
    (hc0 : ¬cond0_0 i) (hc1 : cond0_1 i) (x0 : Vec F S8x4x2048 .f32) (x1 : Vec F S8x4x128 .f32)
    (xs0 : Vec F S8x2048 .f32) (xs1 : Vec F S8x1 .f32) :
    sout0_C_0 c i a2 h2 a3 h3 a4 h4 a5 h5 a6 h6 hc0 hc1 x0 x1 xs0 xs1 = minStep x0 x1 xs0 := by
  unfold sout0_C_0
  rw [View.read_writes_eq_canon _ _ _ (scover0_C_0 c i a2 h2 a3 h3 a4 h4 a5 h5 a6 h6 hc0 hc1 x0 x1 xs0 xs1)]
  unfold kernelRun0_C
  dsimp only
  sl_unfold_words
  rw [View.canon_unit_zero hz2]
  simp only [View.readAt_eq_ld, h2.read_unread, h3.read_unread, h5.read_unread, h6.read_unread,
    View.ld_unit_zero (S := S8x4x2048) hz3, View.ld_unit_zero (S := S8x4x128) hz3,
    View.ld_unit_zero (S := S8x2048) hz2, View.ld_unit_zero (S := S8x1) hz2]

/-- Last tile, half-sum: updated, then half the sum of the roots of the finished row minima added. -/
theorem sumC (c : Dev nD) (i : grid0.Coords) (a2 : Memref sig .tc .vmem S8x4x2048 .f32) (h2 : a2.IsWhole)
    (a3 : Memref sig .tc .vmem S8x4x128 .f32) (h3 : a3.IsWhole) (a4 : Memref sig .tc .vmem S8x1 .f32) (h4 : a4.IsWhole)
    (a5 : Memref sig .tc .vmem S8x2048 .f32) (h5 : a5.IsWhole) (a6 : Memref sig .tc .vmem S8x1 .f32) (h6 : a6.IsWhole)
    (hc0 : ¬cond0_0 i) (hc1 : cond0_1 i) (x0 : Vec F S8x4x2048 .f32) (x1 : Vec F S8x4x128 .f32)
    (xs0 : Vec F S8x2048 .f32) (xs1 : Vec F S8x1 .f32) :
    sout0_C_1 c i a2 h2 a3 h3 a4 h4 a5 h5 a6 h6 hc0 hc1 x0 x1 xs0 xs1 = k0_pay2 (minStep x0 x1 xs0) (sumStep x0 x1 xs1) := by
  unfold sout0_C_1
  rw [View.read_writes_eq_canon _ _ _ (scover0_C_1 c i a2 h2 a3 h3 a4 h4 a5 h5 a6 h6 hc0 hc1 x0 x1 xs0 xs1)]
  unfold kernelRun0_C
  dsimp only
  sl_unfold_words
  rw [View.canon_cons_unit_zero (S := S8x1) hz2, View.readCov_unit_zero (S := S8x1) _ hz2,
    View.readCov_unit_zero (S := S8x2048) _ hz2]
  simp only [View.readAt_eq_ld, h2.read_unread, h3.read_unread, h5.read_unread, h6.read_unread,
    View.ld_unit_zero (S := S8x4x2048) hz3, View.ld_unit_zero (S := S8x4x128) hz3,
    View.ld_unit_zero (S := S8x2048) hz2, View.ld_unit_zero (S := S8x1) hz2]

/-- Last tile, output block: the finished half-sum column. -/
theorem outC (c : Dev nD) (i : grid0.Coords) (a2 : Memref sig .tc .vmem S8x4x2048 .f32) (h2 : a2.IsWhole)
    (a3 : Memref sig .tc .vmem S8x4x128 .f32) (h3 : a3.IsWhole) (a4 : Memref sig .tc .vmem S8x1 .f32) (h4 : a4.IsWhole)
    (a5 : Memref sig .tc .vmem S8x2048 .f32) (h5 : a5.IsWhole) (a6 : Memref sig .tc .vmem S8x1 .f32) (h6 : a6.IsWhole)
    (hc0 : ¬cond0_0 i) (hc1 : cond0_1 i) (x0 : Vec F S8x4x2048 .f32) (x1 : Vec F S8x4x128 .f32)
    (xs0 : Vec F S8x2048 .f32) (xs1 : Vec F S8x1 .f32) :
    out0_C_2 c i a2 h2 a3 h3 a4 h4 a5 h5 a6 h6 hc0 hc1 x0 x1 xs0 xs1 = k0_pay2 (minStep x0 x1 xs0) (sumStep x0 x1 xs1) := by
  unfold out0_C_2
  rw [View.read_writes_eq_canon _ _ _ (cover0_C_2 c i a2 h2 a3 h3 a4 h4 a5 h5 a6 h6 hc0 hc1 x0 x1 xs0 xs1)]
  unfold kernelRun0_C
  dsimp only
  sl_unfold_words
  rw [View.canon_unit_zero hz2, View.readCov_cons_toLoadRect, View.readCov_unit_zero (S := S8x2048) _ hz2,
    View.readCov_unit_zero (S := S8x1) _ hz2]
  simp only [View.readAt_eq_ld, h2.read_unread, h3.read_unread, h5.read_unread, h6.read_unread,
    View.ld_unit_zero (S := S8x4x2048) hz3, View.ld_unit_zero (S := S8x4x128) hz3,
    View.ld_unit_zero (S := S8x2048) hz2, View.ld_unit_zero (S := S8x1) hz2]

end Cert.KernelIdeal.CaseValues
end
-- ==== Proof.PayloadOps.lean ====
/-
  The body's operations that are not entry by entry, each read at one entry over the extended reals: a slice of the
  channel axis, a sum of squares over it, a column or a row repeated along a new axis, the product of two blocks over the
  channel axis into a zero accumulator, a minimum along an axis taken from +∞, and a row sum kept as a column.
-/
import proofs.«146583_j49727131353178_2_alg».proof.Proof.Gen.KernelIdeal.Skeleton
import proofs.«146583_j49727131353178_2_alg».proof.Proof.ChamferLaw
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.PayloadOps

open Cert.KernelIdeal Cert.KernelIdeal.Gen Cert.Chamfer

/-- Spatial coordinate `k` (of three) sits at channel `1 + k` (of four). -/
abbrev sp (k : Fin 3) : Fin 4 := ⟨1 + k.val, by have := k.isLt; omega⟩

abbrev dotK := dot_S8x3x2048_S8x3x128_S8x2048x128_1_1_2_2_0_0

/-! ## One lemma per operation that is not entry by entry -/

theorem sliceP (x : FVec Ideal S8x4x2048 .f32) (b : Fin 8) (k : Fin 3) (n : Fin 2048) :
    extractStridedSlice S8x3x2048 ![0, 1, 0] x slices_S8x4x2048_o0_1_0_S8x3x2048 (ix3 b k n) = x (ix3 b (sp k) n) :=
  slice3_axis1_apply 1 x slices_S8x4x2048_o0_1_0_S8x3x2048 b k n (sp k) rfl

theorem sliceQ (x : FVec Ideal S8x4x128 .f32) (b : Fin 8) (k : Fin 3) (j : Fin 128) :
    extractStridedSlice S8x3x128 ![0, 1, 0] x slices_S8x4x128_o0_1_0_S8x3x128 (ix3 b k j) = x (ix3 b (sp k) j) :=
  slice3_axis1_apply 1 x slices_S8x4x128_o0_1_0_S8x3x128 b k j (sp k) rfl

/-- The sum of squares over the channel axis of a [8, 3, 2048] block. -/
theorem sumsqP (s : FVec Ideal S8x3x2048 .f32) (hφ : FKind.Formats .f32) (hacc : (0x00000000#32 : BitVec 32) = FKind.add.neutral .f32 hφ) (b : Fin 8) (n : Fin 2048) :
    multiReduction .add [1] S8x2048 (mulf s s) 0x00000000#32 reduces_S8x3x2048_S8x2048 hφ hacc (ix2 b n)
      = ∑ k : Fin 3, s (ix3 b k n) * s (ix3 b k n) := by
  refine (Ideal.multiReduction_add_single (mulf s s) 0x00000000#32 reduces_S8x3x2048_S8x2048 hφ hacc (ix2 b n)).trans ?_
  refine Finset.sum_congr rfl fun k _ => ?_
  have e : reduces_S8x3x2048_S8x2048.lift (ix2 b n) k = ix3 b k n :=
    funext fun a => Fin.ext (by match a with | ⟨0, _⟩ => rfl | ⟨1, _⟩ => rfl | ⟨2, _⟩ => rfl)
  rw [e]; rfl

theorem sumsqQ (s : FVec Ideal S8x3x128 .f32) (hφ : FKind.Formats .f32) (hacc : (0x00000000#32 : BitVec 32) = FKind.add.neutral .f32 hφ) (b : Fin 8) (j : Fin 128) :
    multiReduction .add [1] S8x128 (mulf s s) 0x00000000#32 reduces_S8x3x128_S8x128 hφ hacc (ix2 b j)
      = ∑ k : Fin 3, s (ix3 b k j) * s (ix3 b k j) := by
  refine (Ideal.multiReduction_add_single (mulf s s) 0x00000000#32 reduces_S8x3x128_S8x128 hφ hacc (ix2 b j)).trans ?_
  refine Finset.sum_congr rfl fun k _ => ?_
  have e : reduces_S8x3x128_S8x128.lift (ix2 b j) k = ix3 b k j :=
    funext fun a => Fin.ext (by match a with | ⟨0, _⟩ => rfl | ⟨1, _⟩ => rfl | ⟨2, _⟩ => rfl)
  rw [e]; rfl

/-- A column [8, 2048] repeated along a new last axis. -/
theorem colB (v : FVec Ideal S8x2048 .f32) (b : Fin 8) (n : Fin 2048) (j : Fin 128) :
    broadcastTo S8x2048x128 (shapeCast S8x2048x1 v shapeCasts_S8x2048_S8x2048x1) broadcasts_S8x2048x1_S8x2048x128 (ix3 b n j)
      = v (ix2 b n) := by
  refine (broadcastTo_apply _ broadcasts_S8x2048x1_S8x2048x128 (ix3 b n j) (ix3 b n (0 : Fin 1)) (fun a => ?_)).trans ?_
  · match a with
    | ⟨0, _⟩ => rfl
    | ⟨1, _⟩ => rfl
    | ⟨2, _⟩ => rfl
  · refine shapeCast_apply v shapeCasts_S8x2048_S8x2048x1 (ix3 b n (0 : Fin 1)) (ix2 b n) ?_
    rw [Shape.rowMajor_val_two, Shape.rowMajor_val_three]
    show b.val * 2048 + n.val = (b.val * 2048 + n.val) * 1 + 0
    omega

/-- A row [8, 128] repeated along a new middle axis. -/
theorem rowB (w : FVec Ideal S8x128 .f32) (b : Fin 8) (n : Fin 2048) (j : Fin 128) :
    broadcastTo S8x2048x128 (shapeCast S8x1x128 w shapeCasts_S8x128_S8x1x128) broadcasts_S8x1x128_S8x2048x128 (ix3 b n j)
      = w (ix2 b j) := by
  refine (broadcastTo_apply _ broadcasts_S8x1x128_S8x2048x128 (ix3 b n j) (ix3 b (0 : Fin 1) j) (fun a => ?_)).trans ?_
  · match a with
    | ⟨0, _⟩ => rfl
    | ⟨1, _⟩ => rfl
    | ⟨2, _⟩ => rfl
  · refine shapeCast_apply w shapeCasts_S8x128_S8x1x128 (ix3 b (0 : Fin 1) j) (ix2 b j) ?_
    rw [Shape.rowMajor_val_two, Shape.rowMajor_val_three]
    show b.val * 128 + j.val = (b.val * 1 + 0) * 128 + j.val
    omega

theorem lhsK_0 (i : S8x2048x128.Idx) (q : dotK.contr.Idx) : (dotK.lhsIdx i q 0).val = (i 0).val := by
  unfold DotDims.lhsIdx
  rw [dif_pos (show (0 : Fin S8x3x2048.rank) ∈ dotK.lhsBatch by decide)]
  rfl
theorem lhsK_1 (i : S8x2048x128.Idx) (q : dotK.contr.Idx) : (dotK.lhsIdx i q 1).val = (q ⟨0, by decide⟩).val :=
  dotK.lhsIdx_val_of_single rfl i q
theorem lhsK_2 (i : S8x2048x128.Idx) (q : dotK.contr.Idx) : (dotK.lhsIdx i q 2).val = (i 1).val := by
  unfold DotDims.lhsIdx
  rw [dif_neg (show ¬(2 : Fin S8x3x2048.rank) ∈ dotK.lhsBatch by decide),
    dif_pos (show (2 : Fin S8x3x2048.rank) ∈ dotK.lhsNonContracting by decide)]
  rfl
theorem rhsK_0 (i : S8x2048x128.Idx) (q : dotK.contr.Idx) : (dotK.rhsIdx i q 0).val = (i 0).val := by
  unfold DotDims.rhsIdx
  rw [dif_pos (show (0 : Fin S8x3x128.rank) ∈ dotK.rhsBatch by decide)]
  rfl
theorem rhsK_1 (i : S8x2048x128.Idx) (q : dotK.contr.Idx) : (dotK.rhsIdx i q 1).val = (q ⟨0, by decide⟩).val :=
  dotK.rhsIdx_val_of_single rfl i q
theorem rhsK_2 (i : S8x2048x128.Idx) (q : dotK.contr.Idx) : (dotK.rhsIdx i q 2).val = (i 2).val := by
  unfold DotDims.rhsIdx
  rw [dif_neg (show ¬(2 : Fin S8x3x128.rank) ∈ dotK.rhsBatch by decide),
    dif_pos (show (2 : Fin S8x3x128.rank) ∈ dotK.rhsNonContracting by decide)]
  rfl

/-- The product of the two blocks over the channel axis, into a zero accumulator. -/
theorem crossE (l : FVec Ideal S8x3x2048 .f32) (r : FVec Ideal S8x3x128 .f32) (b : Fin 8) (n : Fin 2048) (j : Fin 128) :
    matmul dotK none l r (constant S8x2048x128 .f32 0x00000000#32) (ix3 b n j) = ∑ k : Fin 3, l (ix3 b k n) * r (ix3 b k j) := by
  refine (Ideal.matmul_constant_zero_apply dotK none l r (ix3 b n j)).trans ?_
  rw [← Equiv.sum_comp (contrEquiv1 dotK 3 rfl rfl).symm]
  refine Finset.sum_congr rfl fun k _ => ?_
  have hk := contrEquiv1_symm_val dotK 3 rfl rfl k
  have el : dotK.lhsIdx (ix3 b n j) ((contrEquiv1 dotK 3 rfl rfl).symm k) = ix3 b k n := funext fun a => Fin.ext (by
    match a with
    | ⟨0, _⟩ => exact lhsK_0 _ _
    | ⟨1, _⟩ => exact (lhsK_1 _ _).trans hk
    | ⟨2, _⟩ => exact lhsK_2 _ _)
  have er : dotK.rhsIdx (ix3 b n j) ((contrEquiv1 dotK 3 rfl rfl).symm k) = ix3 b k j := funext fun a => Fin.ext (by
    match a with
    | ⟨0, _⟩ => exact rhsK_0 _ _
    | ⟨1, _⟩ => exact (rhsK_1 _ _).trans hk
    | ⟨2, _⟩ => exact rhsK_2 _ _)
  rw [el, er]

/-- The minimum of each row over the last axis, from +∞. -/
theorem minLast (v : FVec Ideal S8x2048x128 .f32) (hφ : FKind.Formats .f32) (hacc : (0x7F800000#32 : BitVec 32) = FKind.minimumf.neutral .f32 hφ) (b : Fin 8) (n : Fin 2048) :
    multiReduction .minimumf [2] S8x2048 v 0x7F800000#32 reduces_S8x2048x128_S8x2048 hφ hacc (ix2 b n)
      = (Finset.univ : Finset (Fin 128)).fold min (Ideal.ofBits .f32 0x7F800000#32) (fun j => v (ix3 b n j)) := by
  refine (multiReduction_minimumf_eq_fold v _ reduces_S8x2048x128_S8x2048 hφ hacc (ix2 b n)).trans ?_
  refine (reduces_S8x2048x128_S8x2048.fold_filter_drop_single _ _ v (ix2 b n)).trans ?_
  exact Finset.fold_congr fun j _ => congrArg v
    (funext fun a => Fin.ext (by match a with | ⟨0, _⟩ => rfl | ⟨1, _⟩ => rfl | ⟨2, _⟩ => rfl))

/-- The minimum of each column over the middle axis, from +∞. -/
theorem minMid (v : FVec Ideal S8x2048x128 .f32) (hφ : FKind.Formats .f32) (hacc : (0x7F800000#32 : BitVec 32) = FKind.minimumf.neutral .f32 hφ) (b : Fin 8) (j : Fin 128) :
    multiReduction .minimumf [1] S8x128 v 0x7F800000#32 reduces_S8x2048x128_S8x128 hφ hacc (ix2 b j)
      = (Finset.univ : Finset (Fin 2048)).fold min (Ideal.ofBits .f32 0x7F800000#32) (fun n => v (ix3 b n j)) := by
  refine (multiReduction_minimumf_eq_fold v _ reduces_S8x2048x128_S8x128 hφ hacc (ix2 b j)).trans ?_
  refine (reduces_S8x2048x128_S8x128.fold_filter_drop_single _ _ v (ix2 b j)).trans ?_
  exact Finset.fold_congr fun n _ => congrArg v
    (funext fun a => Fin.ext (by match a with | ⟨0, _⟩ => rfl | ⟨1, _⟩ => rfl | ⟨2, _⟩ => rfl))

/-- The sum of each row of a [8, 128] block, kept as a column. -/
theorem rowSum128 (v : FVec Ideal S8x128 .f32) (hφ : FKind.Formats .f32) (hacc : (0x00000000#32 : BitVec 32) = FKind.add.neutral .f32 hφ) (b : Fin 8) (z : Fin 1) :
    shapeCast S8x1 (multiReduction .add [1] S8 v 0x00000000#32 reduces_S8x128_S8 hφ hacc) shapeCasts_S8_S8x1 (ix2 b z)
      = ∑ j : Fin 128, v (ix2 b j) := by
  refine (shapeCast_apply _ shapeCasts_S8_S8x1 (ix2 b z) (ix1 b) ?_).trans ?_
  · rw [Shape.rowMajor_val_one, Shape.rowMajor_val_two]
    show b.val = b.val * 1 + z.val
    have := z.isLt; omega
  · refine (Ideal.multiReduction_add_single v 0x00000000#32 reduces_S8x128_S8 hφ hacc (ix1 b)).trans ?_
    exact Finset.sum_congr rfl fun j _ => congrArg v
      (funext fun a => Fin.ext (by match a with | ⟨0, _⟩ => rfl | ⟨1, _⟩ => rfl))

/-- The sum of each row of a [8, 2048] block, kept as a column. -/
theorem rowSum2048 (v : FVec Ideal S8x2048 .f32) (hφ : FKind.Formats .f32) (hacc : (0x00000000#32 : BitVec 32) = FKind.add.neutral .f32 hφ) (b : Fin 8) (z : Fin 1) :
    shapeCast S8x1 (multiReduction .add [1] S8 v 0x00000000#32 reduces_S8x2048_S8 hφ hacc) shapeCasts_S8_S8x1 (ix2 b z)
      = ∑ n : Fin 2048, v (ix2 b n) := by
  refine (shapeCast_apply _ shapeCasts_S8_S8x1 (ix2 b z) (ix1 b) ?_).trans ?_
  · rw [Shape.rowMajor_val_one, Shape.rowMajor_val_two]
    show b.val = b.val * 1 + z.val
    have := z.isLt; omega
  · refine (Ideal.multiReduction_add_single v 0x00000000#32 reduces_S8x2048_S8 hφ hacc (ix1 b)).trans ?_
    exact Finset.sum_congr rfl fun n _ => congrArg v
      (funext fun a => Fin.ext (by match a with | ⟨0, _⟩ => rfl | ⟨1, _⟩ => rfl))

end Cert.KernelIdeal.PayloadOps

end
-- ==== Proof.Payloads.lean ====
/-
  The body's pure terms, read entry by entry over the extended reals.

  For a block `x0` of the first cloud ([8, 4, 2048]: batch row, channel, point) and a block `x1` of the second
  ([8, 4, 128]) the body forms, for every pair (point n, point j), the clamped squared distance
      dblk x0 x1 b n j = max(|p|² + |q|² − 2·⟨p, q⟩, 0)
  over the three spatial channels 1, 2, 3 (channel 0 is dropped), then
    • the minimum over j of each row n, folded into the running row minima;
    • the root of (the minimum over n of each column j, plus ε);
    • half the sum over a row of such roots, added to the running column.
  The root of a vector shifted by ε is read at an entry by a lemma about an arbitrary vector (`sqrt_eps_at`), applied to
  the vector of column minima.
-/
import proofs.«146583_j49727131353178_2_alg».proof.Proof.PayloadOps

noncomputable section

open Idealize.ShloMosaic Idealize.ShloMosaic.ValueIdx

namespace Cert.KernelIdeal.Payloads

open Cert.KernelIdeal Cert.KernelIdeal.Gen Cert.Chamfer Cert.KernelIdeal.PayloadOps

/-- The clamped squared distance between point `n` of the first block and point `j` of the second, in batch row `b`. -/
def dblk (x0 : FVec Ideal S8x4x2048 .f32) (x1 : FVec Ideal S8x4x128 .f32) (b : Fin 8) (n : Fin 2048) (j : Fin 128) : EReal :=
  max (((∑ k : Fin 3, x0 (ix3 b (sp k) n) * x0 (ix3 b (sp k) n)) + (∑ k : Fin 3, x1 (ix3 b (sp k) j) * x1 (ix3 b (sp k) j)))
        - Ideal.ofBits .f32 0x40000000#32 * ∑ k : Fin 3, x0 (ix3 b (sp k) n) * x1 (ix3 b (sp k) j))
      (Ideal.ofBits .f32 0x00000000#32)

theorem pay3_apply (x0 : FVec Ideal S8x4x2048 .f32) (x1 : FVec Ideal S8x4x128 .f32) (b : Fin 8) (n : Fin 2048) (j : Fin 128) :
    k0_pay3 (F := Ideal) x0 x1 (ix3 b n j) = dblk x0 x1 b n j := by
  unfold k0_pay3 dblk
  simp only [shapeCast_self, maximumf_apply, subf_apply, addf_apply, mulf_apply, broadcast_apply, colB, rowB, crossE, sliceP, sliceQ]
  refine congrArg₂ max (congrArg₂ (· - ·) (congrArg₂ (· + ·) ?_ ?_) rfl) rfl
  · exact (sumsqP _ _ _ b n).trans (Finset.sum_congr rfl fun k _ => by rw [sliceP])
  · exact (sumsqQ _ _ _ b j).trans (Finset.sum_congr rfl fun k _ => by rw [sliceQ])

theorem pay4_apply (b : Fin 8) (n : Fin 2048) : k0_pay4 (F := Ideal) (ix2 b n) = Ideal.ofBits .f32 0x7F800000#32 := by
  unfold k0_pay4
  simp only [shapeCast_self, broadcast_apply]
  rfl

theorem pay5_apply (b : Fin 8) (z : Fin 1) : k0_pay5 (F := Ideal) (ix2 b z) = Ideal.ofBits .f32 0x00000000#32 := by
  unfold k0_pay5
  simp only [shapeCast_self, broadcast_apply]
  rfl

theorem pay6_apply (x0 : FVec Ideal S8x4x2048 .f32) (x1 : FVec Ideal S8x4x128 .f32) (old : FVec Ideal S8x2048 .f32) (b : Fin 8) (n : Fin 2048) :
    k0_pay6 (F := Ideal) x0 x1 old (ix2 b n)
      = min (old (ix2 b n)) ((Finset.univ : Finset (Fin 128)).fold min (Ideal.ofBits .f32 0x7F800000#32) (fun j => dblk x0 x1 b n j)) := by
  unfold k0_pay6
  simp only [shapeCast_self, minimumf_apply]
  refine congrArg (min _) ?_
  refine (minLast _ _ _ b n).trans ?_
  exact Finset.fold_congr fun j _ => pay3_apply x0 x1 b n j

/-- The root of (a vector plus ε), at one entry, for an arbitrary vector. -/
theorem sqrt_eps_at {s : Shape} (M : FVec Ideal s .f32) (i : s.Idx) :
    sqrt (addf M (broadcast s (Scalar.ofBits .f32 0x24E69595#32))) i = g (M i) := rfl

/-- The second payload as a whole vector: the root of (the column minima plus ε). -/
theorem pay7_fun (x0 : FVec Ideal S8x4x2048 .f32) (x1 : FVec Ideal S8x4x128 .f32) :
    k0_pay7 (F := Ideal) x0 x1
      = sqrt (addf (multiReduction .minimumf [1] S8x128 (k0_pay3 (F := Ideal) x0 x1) 0x7F800000#32 reduces_S8x2048x128_S8x128 (.inl rfl) rfl)
          (broadcast S8x128 (Scalar.ofBits .f32 0x24E69595#32))) := rfl

theorem pay7_apply (x0 : FVec Ideal S8x4x2048 .f32) (x1 : FVec Ideal S8x4x128 .f32) (b : Fin 8) (j : Fin 128) :
    k0_pay7 (F := Ideal) x0 x1 (ix2 b j)
      = g ((Finset.univ : Finset (Fin 2048)).fold min (Ideal.ofBits .f32 0x7F800000#32) (fun n => dblk x0 x1 b n j)) := by
  rw [pay7_fun, sqrt_eps_at]
  exact congrArg g ((minMid _ _ _ b j).trans (Finset.fold_congr fun n _ => pay3_apply x0 x1 b n j))

theorem pay1_apply (v33 : FVec Ideal S8x128 .f32) (old : FVec Ideal S8x1 .f32) (b : Fin 8) (z : Fin 1) :
    k0_pay1 (F := Ideal) v33 old (ix2 b z) = old (ix2 b z) + Ideal.ofBits .f32 0x3F000000#32 * ∑ j : Fin 128, v33 (ix2 b j) := by
  unfold k0_pay1
  simp only [shapeCast_self, addf_apply, mulf_apply, broadcast_apply]
  refine congrArg (_ + ·) (congrArg (_ * ·) ?_)
  exact rowSum128 v33 _ _ b z

theorem pay2_apply (v46 : FVec Ideal S8x2048 .f32) (old : FVec Ideal S8x1 .f32) (b : Fin 8) (z : Fin 1) :
    k0_pay2 (F := Ideal) v46 old (ix2 b z) = old (ix2 b z) + Ideal.ofBits .f32 0x3F000000#32 * ∑ n : Fin 2048, g (v46 (ix2 b n)) := by
  unfold k0_pay2
  simp only [shapeCast_self, addf_apply, mulf_apply, broadcast_apply]
  refine congrArg (_ + ·) (congrArg (_ * ·) ?_)
  exact (rowSum2048 _ _ _ b z).trans (Finset.sum_congr rfl fun n _ => rfl)

end Cert.KernelIdeal.Payloads

end
-- ==== Proof.KernelValue.lean ====
/-
  What the kernel's result is, as a function of its two argument arrays.

  The grid has 8 batch tiles × 16 column tiles; point t is batch tile t / 16, column tile t % 16.  At point t the first
  window holds rows 8·(t/16) … +7 of the first cloud (all 2048 points), the second window the same batch rows of the
  second cloud restricted to points 128·(t%16) … +127; both clouds arrive transposed (batch, channel, point).
  So the block of clamped squared distances the body forms at point t is the table `Dn` at batch 8·(t/16)+b, row n,
  column 128·(t%16)+j.  By induction over the points, after point t the two accumulators hold the running row minima
  and the running half-sum of the law's statement; at the last column tile the output block receives the finished
  half-sum, and it is written back to rows 8·(t/16) … +7 of the [64, 1] result array.  Those eight blocks cover the
  array.  The host then adds its 64 entries from 0.
-/
import proofs.«146583_j49727131353178_2_alg».proof.Proof.Gen.KernelIdeal.Frame
import proofs.«146583_j49727131353178_2_alg».proof.Proof.CaseValues
import proofs.«146583_j49727131353178_2_alg».proof.Proof.Payloads
import proofs.«146583_j49727131353178_2_alg».proof.Proof.Table
import Idealize.ShloMosaic.Lib.Pipeline.Value
import Idealize.ShloMosaic.Lib.StableHlo.Run
import Idealize.ShloMosaic.Lib.ValueLayout
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.CaseValues Cert.KernelIdeal.PayloadOps Cert.KernelIdeal.Payloads Cert.Chamfer

variable (m : (ℓ : Loc nD τ sig) → Buf (Elt Ideal) ℓ) (ρ : Dev nD → PrngReg)

/-- The table of clamped squared distances of the two argument arrays on core `c`. -/
abbrev D (c : Dev nD) : ℕ → ℕ → ℕ → EReal :=
  Dn (m ((c : Thread nD τ).loc main_arg0)) (m ((c : Thread nD τ).loc main_arg1))

/-! ## The arrays the region finds: the arguments, transposed -/

theorem V_v0 (c : Dev nD) : (V m c main_v0 : S64x4x2048.Idx → EReal)
    = transpose S64x4x2048 [0, 2, 1] (m ((c : Thread nD τ).loc main_arg0)) transposes_S64x2048x4_S64x4x2048_0_2_1 := by
  show StableHlo.after hostOps0 (fun b => m (c, b)) (Proc.devRef .tc main_v0) = _
  after_results

theorem V_v1 (c : Dev nD) : (V m c main_v1 : S64x4x2048.Idx → EReal)
    = transpose S64x4x2048 [0, 2, 1] (m ((c : Thread nD τ).loc main_arg1)) transposes_S64x2048x4_S64x4x2048_0_2_1 := by
  show StableHlo.after hostOps0 (fun b => m (c, b)) (Proc.devRef .tc main_v1) = _
  after_results

/-! ## Where the windows sit at a point -/

theorem idxf0 : ∀ t : Fin cfg0.N, win0_0.index t (0 : Fin 3) = t.val / 16 ∧ win0_0.index t (1 : Fin 3) = 0 ∧ win0_0.index t (2 : Fin 3) = 0 :=
  (by decide +kernel : ∀ t : Fin grid0.N, _)
theorem idxf1 : ∀ t : Fin cfg0.N, win0_1.index t (0 : Fin 3) = t.val / 16 ∧ win0_1.index t (1 : Fin 3) = 0 ∧ win0_1.index t (2 : Fin 3) = t.val % 16 :=
  (by decide +kernel : ∀ t : Fin grid0.N, _)
theorem idxf2 : ∀ t : Fin cfg0.N, win0_2.index t (0 : Fin 2) = t.val / 16 ∧ win0_2.index t (1 : Fin 2) = 0 :=
  (by decide +kernel : ∀ t : Fin grid0.N, _)

/-- The first window's block at point `t`: batch rows 8·(t/16) … of the first cloud. -/
theorem blk0 (c : Dev nD) (t : Fin cfg0.N) (b : Fin 8) (d : Fin 4) (n : Fin 2048) :
    (iblk m c 0 t : FVec Ideal S8x4x2048 .f32) (ix3 b d n)
      = coordN (m ((c : Thread nD τ).loc main_arg0)) (8 * (t.val / 16) + b.val) n.val d.val := by
  obtain ⟨h0, h1, h2⟩ := idxf0 t
  have hN : t.val < 128 := lt_of_lt_of_eq t.isLt N_0
  have hβ : 8 * (t.val / 16) + b.val < 64 := by have := b.isLt; omega
  unfold iblk
  rw [View.read_apply]
  show (V m c main_v0 : S64x4x2048.Idx → EReal) _ = _
  rw [V_v0]
  refine (congrArg (transpose S64x4x2048 [0, 2, 1] (m ((c : Thread nD τ).loc main_arg0)) transposes_S64x2048x4_S64x4x2048_0_2_1)
    (funext fun a => Fin.ext ?_ : _ = ix3 (⟨8 * (t.val / 16) + b.val, hβ⟩ : Fin 64) d n)).trans ?_
  · match a with
    | ⟨0, _⟩ => show win0_0.index t (0 : Fin 3) * 8 + 1 * b.val = 8 * (t.val / 16) + b.val; rw [h0]; omega
    | ⟨1, _⟩ => show win0_0.index t (1 : Fin 3) * 4 + 1 * d.val = d.val; rw [h1]; omega
    | ⟨2, _⟩ => show win0_0.index t (2 : Fin 3) * 2048 + 1 * n.val = n.val; rw [h2]; omega
  · exact (transpose_ix3_021_apply _ _ _ d n).trans (coordN_eq _ ⟨8 * (t.val / 16) + b.val, hβ⟩ n d).symm

/-- The second window's block at point `t`: the same batch rows of the second cloud, points 128·(t%16) … . -/
theorem blk1 (c : Dev nD) (t : Fin cfg0.N) (b : Fin 8) (d : Fin 4) (j : Fin 128) :
    (iblk m c 1 t : FVec Ideal S8x4x128 .f32) (ix3 b d j)
      = coordN (m ((c : Thread nD τ).loc main_arg1)) (8 * (t.val / 16) + b.val) (128 * (t.val % 16) + j.val) d.val := by
  obtain ⟨h0, h1, h2⟩ := idxf1 t
  have hN : t.val < 128 := lt_of_lt_of_eq t.isLt N_0
  have hβ : 8 * (t.val / 16) + b.val < 64 := by have := b.isLt; omega
  have hq : 128 * (t.val % 16) + j.val < 2048 := by have := j.isLt; omega
  unfold iblk
  rw [View.read_apply]
  show (V m c main_v1 : S64x4x2048.Idx → EReal) _ = _
  rw [V_v1]
  refine (congrArg (transpose S64x4x2048 [0, 2, 1] (m ((c : Thread nD τ).loc main_arg1)) transposes_S64x2048x4_S64x4x2048_0_2_1)
    (funext fun a => Fin.ext ?_ : _ = ix3 (⟨8 * (t.val / 16) + b.val, hβ⟩ : Fin 64) d (⟨128 * (t.val % 16) + j.val, hq⟩ : Fin 2048))).trans ?_
  · match a with
    | ⟨0, _⟩ => show win0_1.index t (0 : Fin 3) * 8 + 1 * b.val = 8 * (t.val / 16) + b.val; rw [h0]; omega
    | ⟨1, _⟩ => show win0_1.index t (1 : Fin 3) * 4 + 1 * d.val = d.val; rw [h1]; omega
    | ⟨2, _⟩ => show win0_1.index t (2 : Fin 3) * 128 + 1 * j.val = 128 * (t.val % 16) + j.val; rw [h2]; omega
  · exact (transpose_ix3_021_apply _ _ _ d _).trans
      (coordN_eq _ ⟨8 * (t.val / 16) + b.val, hβ⟩ ⟨128 * (t.val % 16) + j.val, hq⟩ d).symm

/-- The block of clamped squared distances at point `t` is the table at that batch tile and column tile. -/
theorem dblk_eq (c : Dev nD) (t : Fin cfg0.N) (b : Fin 8) (n : Fin 2048) (j : Fin 128) :
    dblk (iblk m c 0 t) (iblk m c 1 t) b n j = D m c (8 * (t.val / 16) + b.val) n.val (128 * (t.val % 16) + j.val) := by
  unfold dblk D Dn
  refine congrArg₂ max (congrArg₂ (· - ·) (congrArg₂ (· + ·) (Finset.sum_congr rfl fun k _ => ?_) (Finset.sum_congr rfl fun k _ => ?_))
    (congrArg (_ * ·) (Finset.sum_congr rfl fun k _ => ?_))) rfl
  · exact congrArg₂ (· * ·) (blk0 m c t b (sp k) n) (blk0 m c t b (sp k) n)
  · exact congrArg₂ (· * ·) (blk1 m c t b (sp k) j) (blk1 m c t b (sp k) j)
  · exact congrArg₂ (· * ·) (blk0 m c t b (sp k) n) (blk1 m c t b (sp k) j)

/-! ## One tile's updates, over the table -/

section Step
variable (x0 : FVec Ideal S8x4x2048 .f32) (x1 : FVec Ideal S8x4x128 .f32) (T : ℕ → ℕ → ℕ → EReal) (β : Fin 8 → ℕ) (q : ℕ)
  (hx : ∀ (b : Fin 8) (n : Fin 2048) (j : Fin 128), dblk x0 x1 b n j = T (β b) n.val (128 * q + j.val))
include hx

theorem minStep_at (old : FVec Ideal S8x2048 .f32) (b : Fin 8) (r : Fin 2048) :
    minStep (F := Ideal) x0 x1 old (ix2 b r) = min (old (ix2 b r)) (tileMin T (β b) r.val q) := by
  refine (pay6_apply x0 x1 old b r).trans (congrArg (min _) ?_)
  unfold tileMin
  exact Finset.fold_congr fun j _ => hx b r j

theorem sumStep_at (old : FVec Ideal S8x1 .f32) (b : Fin 8) (z : Fin 1) :
    sumStep (F := Ideal) x0 x1 old (ix2 b z) = old (ix2 b z) + tileSum T (β b) q := by
  refine (pay1_apply (k0_pay7 x0 x1) old b z).trans (congrArg (_ + ·) ?_)
  unfold tileSum
  refine congrArg (_ * ·) (Finset.sum_congr rfl fun j _ => ?_)
  refine (pay7_apply x0 x1 b j).trans (congrArg g ?_)
  unfold colMin
  exact Finset.fold_congr fun n _ => hx b n j

end Step

/-- The finished half-sum of batch row `β`. -/
def rowOut (T : ℕ → ℕ → ℕ → EReal) (β : ℕ) : EReal :=
  runSum T β 15 + Ideal.ofBits .f32 0x3F000000#32 * ∑ n : Fin 2048, g (runMin T β n.val 15)

/-! ## What each case leaves, at a point -/

theorem at_A_min (c : Dev nD) (t : Fin cfg0.N) (h0 : t.val % 16 = 0) (h1 : ¬t.val % 16 = 15) :
    (outsAt0 m c t.val t.isLt).2.1 = minStep (F := Ideal) (iblk m c 0 t) (iblk m c 1 t) (k0_pay4 (F := Ideal)) := by
  rw [outsAt0_A m c t h0 h1]
  dsimp only
  exact minA (F := Ideal) c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t)

theorem at_A_sum (c : Dev nD) (t : Fin cfg0.N) (h0 : t.val % 16 = 0) (h1 : ¬t.val % 16 = 15) :
    (outsAt0 m c t.val t.isLt).2.2 = sumStep (F := Ideal) (iblk m c 0 t) (iblk m c 1 t) (k0_pay5 (F := Ideal)) := by
  rw [outsAt0_A m c t h0 h1]
  dsimp only
  exact sumA (F := Ideal) c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t)

theorem at_B_min (c : Dev nD) (t : Fin cfg0.N) (h0 : ¬t.val % 16 = 0) (h1 : ¬t.val % 16 = 15) :
    (outsAt0 m c t.val t.isLt).2.1 = minStep (F := Ideal) (iblk m c 0 t) (iblk m c 1 t) (outsAt0 m c (t.val - 1) (Nat.lt_of_le_of_lt (Nat.sub_le _ _) t.isLt)).2.1 := by
  rw [outsAt0_B m c t h0 h1]
  dsimp only
  exact minB (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2

theorem at_B_sum (c : Dev nD) (t : Fin cfg0.N) (h0 : ¬t.val % 16 = 0) (h1 : ¬t.val % 16 = 15) :
    (outsAt0 m c t.val t.isLt).2.2 = sumStep (F := Ideal) (iblk m c 0 t) (iblk m c 1 t) (outsAt0 m c (t.val - 1) (Nat.lt_of_le_of_lt (Nat.sub_le _ _) t.isLt)).2.2 := by
  rw [outsAt0_B m c t h0 h1]
  dsimp only
  exact sumB (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2

theorem at_C_min (c : Dev nD) (t : Fin cfg0.N) (h0 : ¬t.val % 16 = 0) (h1 : t.val % 16 = 15) :
    (outsAt0 m c t.val t.isLt).2.1 = minStep (F := Ideal) (iblk m c 0 t) (iblk m c 1 t) (outsAt0 m c (t.val - 1) (Nat.lt_of_le_of_lt (Nat.sub_le _ _) t.isLt)).2.1 := by
  rw [outsAt0_C m c t h0 h1]
  dsimp only
  exact minC (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2

theorem at_C_out (c : Dev nD) (t : Fin cfg0.N) (h0 : ¬t.val % 16 = 0) (h1 : t.val % 16 = 15) :
    (outsAt0 m c t.val t.isLt).1
      = k0_pay2 (F := Ideal) (minStep (F := Ideal) (iblk m c 0 t) (iblk m c 1 t) (outsAt0 m c (t.val - 1) (Nat.lt_of_le_of_lt (Nat.sub_le _ _) t.isLt)).2.1) (sumStep (F := Ideal) (iblk m c 0 t) (iblk m c 1 t) (outsAt0 m c (t.val - 1) (Nat.lt_of_le_of_lt (Nat.sub_le _ _) t.isLt)).2.2) := by
  rw [outsAt0_C m c t h0 h1]
  dsimp only
  exact outC (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2

/-! ## The induction over the points -/

/-- After point `n`: the row-minima accumulator is the running minimum over the column tiles met so far; before the last
    column tile the half-sum accumulator is the running sum; at the last column tile the output block is the finished
    half-sum. -/
def InvN (c : Dev nD) (n : ℕ) : Prop := ∀ hn : n < cfg0.N,
  (∀ (b : Fin 8) (r : Fin 2048), (outsAt0 m c n hn).2.1 (ix2 b r) = runMin (D m c) (8 * (n / 16) + b.val) r.val (n % 16))
  ∧ (n % 16 ≠ 15 → ∀ (b : Fin 8) (z : Fin 1), (outsAt0 m c n hn).2.2 (ix2 b z) = runSum (D m c) (8 * (n / 16) + b.val) (n % 16))
  ∧ (n % 16 = 15 → ∀ (b : Fin 8) (z : Fin 1), (outsAt0 m c n hn).1 (ix2 b z) = rowOut (D m c) (8 * (n / 16) + b.val))

theorem inv (c : Dev nD) : ∀ n : ℕ, InvN m c n
  | 0 => fun hn => by
    have hx := fun (b : Fin 8) (n : Fin 2048) (j : Fin 128) => dblk_eq m c ⟨0, hn⟩ b n j
    refine ⟨fun b r => ?_, fun _ b z => ?_, fun h => absurd (show (0 : ℕ) % 16 = 15 from h) (by decide)⟩
    · rw [at_A_min m c ⟨0, hn⟩ rfl (show ¬(0 : ℕ) % 16 = 15 by decide)]
      refine (minStep_at (iblk m c 0 ⟨0, hn⟩) (iblk m c 1 ⟨0, hn⟩) (D m c) (fun b => 8 * (0 / 16) + b.val) (0 % 16) hx _ b r).trans ?_
      rw [pay4_apply, show 0 % 16 = 0 from rfl, runMin_zero]
    · rw [at_A_sum m c ⟨0, hn⟩ rfl (show ¬(0 : ℕ) % 16 = 15 by decide)]
      refine (sumStep_at (iblk m c 0 ⟨0, hn⟩) (iblk m c 1 ⟨0, hn⟩) (D m c) (fun b => 8 * (0 / 16) + b.val) (0 % 16) hx _ b z).trans ?_
      rw [pay5_apply, show 0 % 16 = 0 from rfl, runSum_zero]
  | n + 1 => fun hn => by
    have hN : n + 1 < 128 := lt_of_lt_of_eq hn N_0
    have ih := inv c n (Nat.lt_of_succ_lt hn)
    let t : Fin cfg0.N := ⟨n + 1, hn⟩
    have hx := fun (b : Fin 8) (r : Fin 2048) (j : Fin 128) => dblk_eq m c t b r j
    by_cases h0 : (n + 1) % 16 = 0
    · have h1 : ¬(n + 1) % 16 = 15 := by omega
      refine ⟨fun b r => ?_, fun _ b z => ?_, fun h => absurd h h1⟩
      · rw [at_A_min m c t h0 h1]
        refine (minStep_at (iblk m c 0 t) (iblk m c 1 t) (D m c) (fun b => 8 * ((n + 1) / 16) + b.val) ((n + 1) % 16) hx _ b r).trans ?_
        rw [pay4_apply, h0, runMin_zero]
      · rw [at_A_sum m c t h0 h1]
        refine (sumStep_at (iblk m c 0 t) (iblk m c 1 t) (D m c) (fun b => 8 * ((n + 1) / 16) + b.val) ((n + 1) % 16) hx _ b z).trans ?_
        rw [pay5_apply, h0, runSum_zero]
    · have hdiv : (n + 1) / 16 = n / 16 := by omega
      have hmod : (n + 1) % 16 = n % 16 + 1 := by omega
      by_cases h1 : (n + 1) % 16 = 15
      · have hq : n % 16 ≠ 15 := by omega
        refine ⟨fun b r => ?_, fun h => absurd h1 h, fun _ b z => ?_⟩
        · rw [at_C_min m c t h0 h1]
          refine (minStep_at (iblk m c 0 t) (iblk m c 1 t) (D m c) (fun b => 8 * ((n + 1) / 16) + b.val) ((n + 1) % 16) hx _ b r).trans ?_
          rw [show (outsAt0 m c (t.val - 1) _).2.1 (ix2 b r) = _ from ih.1 b r, hdiv, hmod, runMin_succ]
        · rw [at_C_out m c t h0 h1]
          refine (pay2_apply _ _ b z).trans ?_
          have e1 := sumStep_at (iblk m c 0 t) (iblk m c 1 t) (D m c) (fun b => 8 * ((n + 1) / 16) + b.val) ((n + 1) % 16) hx
            (outsAt0 m c (t.val - 1) (Nat.lt_of_le_of_lt (Nat.sub_le _ _) t.isLt)).2.2 b z
          have e2 := fun r : Fin 2048 => minStep_at (iblk m c 0 t) (iblk m c 1 t) (D m c) (fun b => 8 * ((n + 1) / 16) + b.val) ((n + 1) % 16) hx
            (outsAt0 m c (t.val - 1) (Nat.lt_of_le_of_lt (Nat.sub_le _ _) t.isLt)).2.1 b r
          rw [e1]
          simp only [e2]
          rw [show (outsAt0 m c (t.val - 1) _).2.2 (ix2 b z) = _ from ih.2.1 hq b z]
          simp only [show ∀ r : Fin 2048, (outsAt0 m c (t.val - 1) _).2.1 (ix2 b r) = _ from fun r => ih.1 b r]
          unfold rowOut
          rw [hdiv, h1, show n % 16 = 14 by omega]
          exact congrArg₂ (· + ·) (runSum_succ (D m c) _ 14).symm
            (congrArg (_ * ·) (Finset.sum_congr rfl fun r _ => congrArg g (runMin_succ (D m c) _ _ 14).symm))
      · refine ⟨fun b r => ?_, fun _ b z => ?_, fun h => absurd h h1⟩
        · rw [at_B_min m c t h0 h1]
          refine (minStep_at (iblk m c 0 t) (iblk m c 1 t) (D m c) (fun b => 8 * ((n + 1) / 16) + b.val) ((n + 1) % 16) hx _ b r).trans ?_
          rw [show (outsAt0 m c (t.val - 1) _).2.1 (ix2 b r) = _ from ih.1 b r, hdiv, hmod, runMin_succ]
        · have hq : n % 16 ≠ 15 := by omega
          rw [at_B_sum m c t h0 h1]
          refine (sumStep_at (iblk m c 0 t) (iblk m c 1 t) (D m c) (fun b => 8 * ((n + 1) / 16) + b.val) ((n + 1) % 16) hx _ b z).trans ?_
          rw [show (outsAt0 m c (t.val - 1) _).2.2 (ix2 b z) = _ from ih.2.1 hq b z, hdiv, hmod, runSum_succ]

/-! ## The result array of the region -/

/-- Row `β` of the [64, 1] array the region writes. -/
def G2 (c : Dev nD) : S64x1.Idx → EReal := fun i => rowOut (D m c) (i 0).val

theorem flushed_eq (c : Dev nD) (t : Fin cfg0.N) (hf : (cfg0.win 2).flush t = true) :
    (dats m 0 c).flushed 2 t = ((cfg0.win 2).blk t).view.read (Elt Ideal) (G2 m c) := by
  have h15 : t.val % 16 = 15 := (flush0_2 t).mp hf
  obtain ⟨e0, e1⟩ := idxf2 t
  show (cfg0.win 2).cut (grid0.coords t) ((dats m 0 c).after 2 t) = _
  rw [after0_2]
  funext y
  obtain ⟨b, z, rfl⟩ : ∃ (b : Fin 8) (z : Fin 1), y = ix2 b z := ⟨y 0, y 1, eq_ix2 y⟩
  show (outsAt0 m c t.val t.isLt).1 (ix2 b z) = G2 m c (((cfg0.win 2).blk t).view.emb (ix2 b z))
  rw [(inv m c t.val t.isLt).2.2 h15 b z]
  unfold G2
  refine congrArg (rowOut (D m c)) ?_
  show 8 * (t.val / 16) + b.val = win0_2.index t (0 : Fin 2) * 8 + 1 * b.val
  rw [e0]; omega

theorem mem_blk (t : Fin cfg0.N) (i : S64x1.Idx) :
    i ∈ ((cfg0.win 2).blk t).view.set ↔ ∀ a : Fin 2, win0_2.index t a * S8x1.size a ≤ (i a).val ∧ (i a).val < win0_2.index t a * S8x1.size a + S8x1.size a := by
  show i ∈ ((View.whole main_v2).slice (win0_2.rect t)).set ↔ _
  rw [View.set_slice_whole, Rect.mem_set_unit]
  exact Iff.rfl

/-- The eight written blocks cover the array. -/
theorem final (c : Dev nD) : (dats m 0 c).arrAt 2 cfg0.N = G2 m c :=
  (dats m 0 c).arrAt_eq_of_cover 2 (G2 m c) (flushed_eq m c) fun i => by
    have hi0 : (i 0).val < 64 := (i 0).isLt
    have hi1 : (i 1).val < 1 := (i 1).isLt
    have hN : cfg0.N = 128 := N_0
    let t : Fin cfg0.N := ⟨16 * ((i 0).val / 8) + 15, by rw [hN]; omega⟩
    have ht : t.val = 16 * ((i 0).val / 8) + 15 := rfl
    obtain ⟨e0, e1⟩ := idxf2 t
    refine ⟨t, (flush0_2 t).mpr (by rw [ht]; omega), ?_⟩
    rw [mem_blk]
    intro a
    match a with
    | ⟨0, _⟩ => show win0_2.index t (0 : Fin 2) * 8 ≤ (i 0).val ∧ (i 0).val < win0_2.index t (0 : Fin 2) * 8 + 8; rw [e0, ht]; omega
    | ⟨1, _⟩ => show win0_2.index t (1 : Fin 2) * 1 ≤ (i 1).val ∧ (i 1).val < win0_2.index t (1 : Fin 2) * 1 + 1; rw [e1]; omega

/-! ## The host's sum of the 64 entries -/

theorem tail (c : Dev nD) :
    Pipeline.afterTail₀ cfgs (dats m) 0 (V0 m) [hostOps1] c main_v3
      = Host.reduceAdd (F := Ideal) (G2 m c) (constant (F := Ideal) S_ .f32 0x00000000#32) reducesTo_S64x1_S_d0_1 h_S_ := by
  unfold Pipeline.afterTail₀
  show StableHlo.after hostOps1 _ (Proc.devRef .tc main_v3) = _
  after_results
  rw [(Pipeline.withArrays_arr spec0 launch0.win.arr_inj c _ _ 2).trans (final m c)]

/-- The kernel's result: 0 plus the 64 finished half-sums. -/
def result (c : Dev nD) : Buf (Elt Ideal) ((c : Thread nD τ).loc main_v3) :=
  fun _ => Ideal.ofBits .f32 0x00000000#32 + ∑ β : Fin 64, rowOut (D m c) β.val

theorem tail_eq (c : Dev nD) :
    Host.reduceAdd (F := Ideal) (G2 m c) (constant (F := Ideal) S_ .f32 0x00000000#32) reducesTo_S64x1_S_d0_1 h_S_ = result m c := by
  funext i
  simp only [Host.reduceAdd, Ideal.hostReduceAdd_def]
  rw [Ideal.hostReduceAdd_total reducesTo_S64x1_S_d0_1 (fun b => b.elim0) (G2 m c) _ i, sum_idx2]
  refine congrArg (_ + ·) (Finset.sum_congr rfl fun β _ => ?_)
  rw [Fin.sum_univ_one]
  rfl

/-- The run, read: the result at 0 plus the 64 finished half-sums, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v3 (Pipeline.mem_restRefs_of main_v3 (by decide) (by decide))).trans ((tail m c).trans (tail_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KValue

end
-- ==== Proof.lean ====
/-
  The Chamfer distance between two point clouds, batched: for clouds p, q of 2048 points in each of 64 batches, with
  d(β, n, m) = max(|p₃|² + |q₃|² − 2·⟨p₃, q₃⟩, 0) the clamped squared distance of the three spatial channels, the result is

      Σ over (β, n) of ( min over m of √(d(β, n, m) + ε)  +  min over n' of √(d(β, n', n) + ε) ) · ½ .

  The reference takes the root of every one of the 64·2048·2048 entries and then the two minima.  The kernel works on
  transposed clouds in 8 batch tiles × 16 column tiles: it keeps the minima in squared distance — the row minima as a running
  minimum over the column tiles, the column minima complete within a tile because all 2048 rows are resident —, takes
  roots of the minima only, and accumulates half their sums, tile by tile; the host adds the 64 per-batch results.

  Over the extended reals the two agree for ALL inputs, finite or not:
    • x ↦ √(x + ε) is monotone and fixes +∞, so it commutes with a minimum taken from +∞;
    • the running minimum over sixteen tiles of 128 columns is the minimum over 2048 columns, and likewise for sums;
    • every root is non-negative (d is, by its clamp; ε is), and a factor ½ distributes over sums of non-negative
      extended reals even when a term is +∞.
  The first two frames are the generated ones, the reference's frame is its generated run with the result dropped, and
  the idealization rewrote nothing.
-/
import proofs.«146583_j49727131353178_2_alg».proof.Defs
import proofs.«146583_j49727131353178_2_alg».proof.Proof.Gen.Kernel
import proofs.«146583_j49727131353178_2_alg».proof.Proof.Gen.Kernel.Skeleton
import proofs.«146583_j49727131353178_2_alg».proof.Proof.Gen.Kernel.Launch
import proofs.«146583_j49727131353178_2_alg».proof.Proof.Gen.Kernel.Points
import proofs.«146583_j49727131353178_2_alg».proof.Proof.Gen.Kernel.Frame
import proofs.«146583_j49727131353178_2_alg».proof.Proof.Gen.KernelIdeal
import proofs.«146583_j49727131353178_2_alg».proof.Proof.Gen.KernelIdeal.Skeleton
import proofs.«146583_j49727131353178_2_alg».proof.Proof.Gen.KernelIdeal.Launch
import proofs.«146583_j49727131353178_2_alg».proof.Proof.Gen.KernelIdeal.Points
import proofs.«146583_j49727131353178_2_alg».proof.Proof.Gen.KernelIdeal.Frame
import proofs.«146583_j49727131353178_2_alg».proof.Proof.Gen.ReferenceIdeal
import proofs.«146583_j49727131353178_2_alg».proof.Proof.Gen.ReferenceIdeal.Run
import proofs.«146583_j49727131353178_2_alg».proof.Proof.Gen.ReferenceIdeal.Read
import proofs.«146583_j49727131353178_2_alg».proof.Proof.Gen.Pre_finite_inputs
import proofs.«146583_j49727131353178_2_alg».proof.Proof.ChamferLaw
import proofs.«146583_j49727131353178_2_alg».proof.Proof.Table
import proofs.«146583_j49727131353178_2_alg».proof.Proof.RefValue
import proofs.«146583_j49727131353178_2_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at 0 plus, over the 64 batches, the sum over the 2048 points of (nearest-neighbour root distance
    in each direction) · ½: the reference in that form, the kernel as the tile-by-tile accumulation the law equates to it. -/
theorem algebraic : Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  refine (Cert.ReferenceIdeal.Read.val_main_v25_eq (F := Ideal) _ _).trans ?_
  funext i
  rw [Cert.ReferenceIdeal.RefValue.total]
  unfold Cert.KernelIdeal.KValue.result
  refine congrArg (_ + ·) (Finset.sum_congr rfl fun β _ => ?_)
  unfold Cert.KernelIdeal.KValue.rowOut
  exact (Cert.Chamfer.row_total _ (Cert.Chamfer.Dn_nonneg _ _) β.val).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
